-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x96 : Shape := ⟨2, ![4096, 96]⟩
abbrev S1024x96 : Shape := ⟨2, ![1024, 96]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S16x96x1024 : Shape := ⟨3, ![16, 96, 1024]⟩
abbrev S16x1024x1024 : Shape := ⟨3, ![16, 1024, 1024]⟩
abbrev S16x1024x64 : Shape := ⟨3, ![16, 1024, 64]⟩
abbrev S_ : Shape := ⟨0, ![]⟩

class Facts : Prop where
  bcast_S_S4096x96 : S_.BroadcastsInDim S4096x96 (![] : Fin 0 → Fin S4096x96.rank)
  reducesTo_S4096x96_S_d0_1 : S4096x96.ReducesTo [0, 1] S_
  h_S_ : 0 < S_.numel
  bcast_S_S1024x96 : S_.BroadcastsInDim S1024x96 (![] : Fin 0 → Fin S1024x96.rank)
  reducesTo_S1024x96_S_d0_1 : S1024x96.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S16x96x1024 : S_.BroadcastsInDim S16x96x1024 (![] : Fin 0 → Fin S16x96x1024.rank)
  reducesTo_S16x96x1024_S_d0_1_2 : S16x96x1024.ReducesTo [0, 1, 2] S_
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16x1024x64 : S_.BroadcastsInDim S16x1024x64 (![] : Fin 0 → Fin S16x1024x64.rank)
  reducesTo_S16x1024x64_S_d0_1_2 : S16x1024x64.ReducesTo [0, 1, 2] S_

variable [Facts]

def fn_part3 {F : FTy → Type} [FloatOps F] (main_arg11 : FVec F S16x1024x1024 .f32) (main_arg12 : FVec F S16x1024x64 .f32) (main_v48 : IVec S_ 1) (main_v49 : FVec F S16x1024x1024 .f32) (main_v50 : FVec F S16x1024x1024 .f32) : IVec S_ 1 :=
  let main_v51 : IVec S16x1024x1024 1 := cmpf .olt main_v49 main_v50
  let main_c_19 : IVec S_ 1 := constantI S_ 1 1#1
  let main_v52 : IVec S_ 1 := (fun x v => Host.reduce IntOp.andi x v reducesTo_S16x1024x1024_S_d0_1_2 h_S_) main_v51 main_c_19
  let main_v53 : IVec S_ 1 := andi main_v48 main_v52
  let main_v54 : FVec F S16x1024x1024 .f32 := Host.absf main_arg11
  let main_cst_20 : FVec F S_ .f32 := constant S_ .f32 0x7F800000#32
  let main_v55 : FVec F S16x1024x1024 .f32 := broadcastInDim S16x1024x1024 ![] bcast_S_S16x1024x1024 main_cst_20
  let main_v56 : IVec S16x1024x1024 1 := cmpf .olt main_v54 main_v55
  let main_c_21 : IVec S_ 1 := constantI S_ 1 1#1
  let main_v57 : IVec S_ 1 := (fun x v => Host.reduce IntOp.andi x v reducesTo_S16x1024x1024_S_d0_1_2 h_S_) main_v56 main_c_21
  let main_v58 : IVec S_ 1 := andi main_v53 main_v57
  let main_v59 : FVec F S16x1024x64 .f32 := Host.absf main_arg12
  let main_cst_22 : FVec F S_ .f32 := constant S_ .f32 0x7F800000#32
  let main_v60 : FVec F S16x1024x64 .f32 := broadcastInDim S16x1024x64 ![] bcast_S_S16x1024x64 main_cst_22
  let main_v61 : IVec S16x1024x64 1 := cmpf .olt main_v59 main_v60
  let main_c_23 : IVec S_ 1 := constantI S_ 1 1#1
  let main_v62 : IVec S_ 1 := (fun x v => Host.reduce IntOp.andi x v reducesTo_S16x1024x64_S_d0_1_2 h_S_) main_v61 main_c_23
  let main_v63 : IVec S_ 1 := andi main_v58 main_v62
  main_v63

def fn_part2 {F : FTy → Type} [FloatOps F] (main_arg7 : FVec F S64x1024 .f32) (main_arg8 : FVec F S64 .f32) (main_arg9 : FVec F S16x96x1024 .f32) (main_arg10 : FVec F S16x1024x1024 .f32) (main_arg11 : FVec F S16x1024x1024 .f32) (main_arg12 : FVec F S16x1024x64 .f32) (main_v33 : IVec S_ 1) : IVec S_ 1 :=
  let main_v34 : FVec F S64x1024 .f32 := Host.absf main_arg7
  let main_cst_12 : FVec F S_ .f32 := constant S_ .f32 0x7F800000#32
  let main_v35 : FVec F S64x1024 .f32 := broadcastInDim S64x1024 ![] bcast_S_S64x1024 main_cst_12
  let main_v36 : IVec S64x1024 1 := cmpf .olt main_v34 main_v35
  let main_c_13 : IVec S_ 1 := constantI S_ 1 1#1
  let main_v37 : IVec S_ 1 := (fun x v => Host.reduce IntOp.andi x v reducesTo_S64x1024_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S16x96x1024 .f32 := Host.absf main_arg9
  let main_cst_16 : FVec F S_ .f32 := constant S_ .f32 0x7F800000#32
  let main_v45 : FVec F S16x96x1024 .f32 := broadcastInDim S16x96x1024 ![] bcast_S_S16x96x1024 main_cst_16
  let main_v46 : IVec S16x96x1024 1 := cmpf .olt main_v44 main_v45
  let main_c_17 : IVec S_ 1 := constantI S_ 1 1#1
  let main_v47 : IVec S_ 1 := (fun x v => Host.reduce IntOp.andi x v reducesTo_S16x96x1024_S_d0_1_2 h_S_) main_v46 main_c_17
  let main_v48 : IVec S_ 1 := andi main_v43 main_v47
  let main_v49 : FVec F S16x1024x1024 .f32 := Host.absf main_arg10
  let main_cst_18 : FVec F S_ .f32 := constant S_ .f32 0x7F800000#32
  let main_v50 : FVec F S16x1024x1024 .f32 := broadcastInDim S16x1024x1024 ![] bcast_S_S16x1024x1024 main_cst_18
  fn_part3 (F := F) main_arg11 main_arg12 main_v48 main_v49 main_v50

def fn_part1 {F : FTy → Type} [FloatOps F] (main_arg4 : FVec F S1024 .f32) (main_arg5 : FVec F S1024x1024 .f32) (main_arg6 : FVec F S1024 .f32) (main_arg7 : FVec F S64x1024 .f32) (main_arg8 : FVec F S64 .f32) (main_arg9 : FVec F S16x96x1024 .f32) (main_arg10 : FVec F S16x1024x1024 .f32) (main_arg11 : FVec F S16x1024x1024 .f32) (main_arg12 : FVec F S16x1024x64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x96 .f32) (main_arg1 : FVec F S1024x96 .f32) (main_arg2 : FVec F S1024 .f32) (main_arg3 : FVec F S1024x1024 .f32) (main_arg4 : FVec F S1024 .f32) (main_arg5 : FVec F S1024x1024 .f32) (main_arg6 : FVec F S1024 .f32) (main_arg7 : FVec F S64x1024 .f32) (main_arg8 : FVec F S64 .f32) (main_arg9 : FVec F S16x96x1024 .f32) (main_arg10 : FVec F S16x1024x1024 .f32) (main_arg11 : FVec F S16x1024x1024 .f32) (main_arg12 : FVec F S16x1024x64 .f32) : IVec S_ 1 :=
  let main_v0 : FVec F S4096x96 .f32 := Host.absf main_arg0
  let main_cst : FVec F S_ .f32 := constant S_ .f32 0x7F800000#32
  let main_v1 : FVec F S4096x96 .f32 := broadcastInDim S4096x96 ![] bcast_S_S4096x96 main_cst
  let main_v2 : IVec S4096x96 1 := cmpf .olt main_v0 main_v1
  let main_c : IVec S_ 1 := constantI S_ 1 1#1
  let main_v3 : IVec S_ 1 := (fun x v => Host.reduce IntOp.andi x v reducesTo_S4096x96_S_d0_1 h_S_) main_v2 main_c
  let main_v4 : FVec F S1024x96 .f32 := Host.absf main_arg1
  let main_cst_0 : FVec F S_ .f32 := constant S_ .f32 0x7F800000#32
  let main_v5 : FVec F S1024x96 .f32 := broadcastInDim S1024x96 ![] bcast_S_S1024x96 main_cst_0
  let main_v6 : IVec S1024x96 1 := cmpf .olt main_v4 main_v5
  let main_c_1 : IVec S_ 1 := constantI S_ 1 1#1
  let main_v7 : IVec S_ 1 := (fun x v => Host.reduce IntOp.andi x v reducesTo_S1024x96_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S4096x96 : Shape := ⟨2, ![4096, 96]⟩
abbrev S1024x96 : Shape := ⟨2, ![1024, 96]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S16x96x1024 : Shape := ⟨3, ![16, 96, 1024]⟩
abbrev S16x1024x1024 : Shape := ⟨3, ![16, 1024, 1024]⟩
abbrev S16x1024x64 : Shape := ⟨3, ![16, 1024, 64]⟩
abbrev S96x1024 : Shape := ⟨2, ![96, 1024]⟩
abbrev S1024x64 : Shape := ⟨2, ![1024, 64]⟩
abbrev S1x1024 : Shape := ⟨2, ![1, 1024]⟩
abbrev S1x64 : Shape := ⟨2, ![1, 64]⟩
abbrev S2x4096x64 : Shape := ⟨3, ![2, 4096, 64]⟩
abbrev S1x96x1024 : Shape := ⟨3, ![1, 96, 1024]⟩
abbrev S1x1024x1024 : Shape := ⟨3, ![1, 1024, 1024]⟩
abbrev S1x1024x64 : Shape := ⟨3, ![1, 1024, 64]⟩
abbrev S1x4096x64 : Shape := ⟨3, ![1, 4096, 64]⟩
abbrev S4096x64 : Shape := ⟨2, ![4096, 64]⟩
abbrev S512x96 : Shape := ⟨2, ![512, 96]⟩
abbrev S512x1024 : Shape := ⟨2, ![512, 1024]⟩
abbrev S512x64 : Shape := ⟨2, ![512, 64]⟩
abbrev S_ : Shape := ⟨0, ![]⟩

abbrev nBuf : Space → Nat
  | .hbm => 33
  | .vmem => 23
  | .smem => 0
  | _ => 0

abbrev bufTy : (tb : Table) → Fin (tcTables nBuf tb) → BufTy
  | .hbm, ⟨0, _⟩ => ⟨S4096x96, .f32⟩
  | .hbm, ⟨1, _⟩ => ⟨S1024x96, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S64x1024, .f32⟩
  | .hbm, ⟨8, _⟩ => ⟨S64, .f32⟩
  | .hbm, ⟨9, _⟩ => ⟨S16x96x1024, .f32⟩
  | .hbm, ⟨10, _⟩ => ⟨S16x1024x1024, .f32⟩
  | .hbm, ⟨11, _⟩ => ⟨S16x1024x1024, .f32⟩
  | .hbm, ⟨12, _⟩ => ⟨S16x1024x64, .f32⟩
  | .hbm, ⟨13, _⟩ => ⟨S96x1024, .f32⟩
  | .hbm, ⟨14, _⟩ => ⟨S96x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x64, .f32⟩
  | .hbm, ⟨20, _⟩ => ⟨S1024x64, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x64, .f32⟩
  | .hbm, ⟨25, _⟩ => ⟨S4096x96, .bf16⟩
  | .hbm, ⟨26, _⟩ => ⟨S16x96x1024, .bf16⟩
  | .hbm, ⟨27, _⟩ => ⟨S16x1024x1024, .bf16⟩
  | .hbm, ⟨28, _⟩ => ⟨S16x1024x1024, .bf16⟩
  | .hbm, ⟨29, _⟩ => ⟨S16x1024x64, .bf16⟩
  | .hbm, ⟨30, _⟩ => ⟨S2x4096x64, .f32⟩
  | .hbm, ⟨31, _⟩ => ⟨S_, .f32⟩
  | .hbm, ⟨32, _⟩ => ⟨S4096x64, .f32⟩
  | .local _ .vmem, ⟨0, _⟩ => ⟨S4096x96, .bf16⟩
  | .local _ .vmem, ⟨1, _⟩ => ⟨S96x1024, .bf16⟩
  | .local _ .vmem, ⟨2, _⟩ => ⟨S1x1024, .f32⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1024x64, .bf16⟩
  | .local _ .vmem, ⟨8, _⟩ => ⟨S1x64, .f32⟩
  | .local _ .vmem, ⟨9, _⟩ => ⟨S1x96x1024, .bf16⟩
  | .local _ .vmem, ⟨10, _⟩ => ⟨S1x96x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x4096x64, .f32⟩
  | .local _ .vmem, ⟨18, _⟩ => ⟨S4096x64, .f32⟩
  | .local _ .vmem, ⟨19, _⟩ => ⟨S96x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x64, .bf16⟩
  | _, _ => ⟨S4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_28 : BitVec 32 := 0#32
  let c8_i32 : BitVec 32 := 8#32
  let v35 : BitVec 32 := Scalar.addi c0_i32_28 c8_i32
  let c1_i32 : BitVec 32 := 1#32
  ⟨c0_i32_28, v35, c1_i32⟩
def k0_mult1 (k0_t1 : Fin k0_t1_loop.trips) : BitVec 32 :=
  let c0_i32_32 : BitVec 32 := 0#32
  let c0_i32_28 : BitVec 32 := 0#32
  let c1_i32 : BitVec 32 := 1#32
  let arg21 : BitVec 32 := Scf.iv c0_i32_28 c1_i32 k0_t1
  let c1_i32_31 : BitVec 32 := 1#32
  let v39 : BitVec 32 := Scalar.muli arg21 c1_i32_31
  let v40 : BitVec 32 := Scalar.addi c0_i32_32 v39
  let c512_i32 : BitVec 32 := 512#32
  let v41 : BitVec 32 := Scalar.muli v40 c512_i32
  v41
def k0_off1 (k0_t1 : Fin k0_t1_loop.trips) : Fin 2 → Nat :=
  let c0_i32_32 : BitVec 32 := 0#32
  let c0_i32_28 : BitVec 32 := 0#32
  let c1_i32 : BitVec 32 := 1#32
  let arg21 : BitVec 32 := Scf.iv c0_i32_28 c1_i32 k0_t1
  let c1_i32_31 : BitVec 32 := 1#32
  let v39 : BitVec 32 := Scalar.muli arg21 c1_i32_31
  let v40 : BitVec 32 := Scalar.addi c0_i32_32 v39
  let c512_i32 : BitVec 32 := 512#32
  let v41 : BitVec 32 := Scalar.muli v40 c512_i32
  let v42 : BitVec 32 := v41
  let v43 : Index := Scalar.indexCast v42
  let c0_33 : Index := 0#32
  ![v43.toNat, 0]
def k0_off2 (k0_t1 : Fin k0_t1_loop.trips) : Fin 2 → Nat :=
  let c0_i32_32 : BitVec 32 := 0#32
  let c0_i32_28 : BitVec 32 := 0#32
  let c1_i32 : BitVec 32 := 1#32
  let arg21 : BitVec 32 := Scf.iv c0_i32_28 c1_i32 k0_t1
  let c1_i32_31 : BitVec 32 := 1#32
  let v39 : BitVec 32 := Scalar.muli arg21 c1_i32_31
  let v40 : BitVec 32 := Scalar.addi c0_i32_32 v39
  let c512_i32 : BitVec 32 := 512#32
  let v41 : BitVec 32 := Scalar.muli v40 c512_i32
  let v42 : BitVec 32 := v41
  let v79 : Index := Scalar.indexCast v42
  let c0_56 : Index := 0#32
  ![v79.toNat, 0]
def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_30 : BitVec 32 := 0#32
  let v38 : BitVec 1 := Scalar.cmpi .ne v37 c0_i32_30
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S96x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x96x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x4096x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

class Facts₀ : Prop where
  transposes_S1024x96_S96x1024_1_0 : S1024x96.Transposes [1, 0] S96x1024
  bitsLt_bf16_f32 : FTy.bits .bf16 < FTy.bits .f32
  transposes_S1024x1024_S1024x1024_1_0 : S1024x1024.Transposes [1, 0] S1024x1024
  transposes_S64x1024_S1024x64_1_0 : S64x1024.Transposes [1, 0] S1024x64
  shapeCasts_S1024_S1x1024 : S1024.ShapeCasts S1x1024
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S96x1024_S96x1024_0_0 : ∀ a, (![0, 0] : Fin 2 → Nat) a + S96x1024.size a ≤ S96x1024.size a
  h_S96x1024 : 0 < S96x1024.numel
  shapeCasts_S96x1024_S96x1024 : S96x1024.ShapeCasts S96x1024
  inb_S1x96x1024_S1x96x1024_0_0_0 : ∀ a, (![0, 0, 0] : Fin 3 → Nat) a + S1x96x1024.size a ≤ S1x96x1024.size a
  h_S1x96x1024 : 0 < S1x96x1024.numel
  shapeCasts_S1x96x1024_S96x1024 : S1x96x1024.ShapeCasts S96x1024
  packedbf16_S96x1024_S96x1024_0_0 : (Rect.unit (s := S96x1024) ![0, 0] S96x1024.size inb_S96x1024_S96x1024_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  packedbf16_S1024x64_S1024x64_0_0 : (Rect.unit (s := S1024x64) ![0, 0] S1024x64.size inb_S1024x64_S1024x64_0_0).PackedRows (EltTy.packing .bf16)
  h_S512x96 : 0 < S512x96.numel
  shapeCasts_S512x96_S512x96 : S512x96.ShapeCasts S512x96
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  h_S512x64 : 0 < S512x64.numel
  shapeCasts_S512x64_S512x64 : S512x64.ShapeCasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  reducesTo_S2x4096x64_S4096x64_d0 : S2x4096x64.ReducesTo [0] S4096x64
  h_S_ : 0 < S_.numel
  dot_S512x96_S96x1024_S512x1024_1_0_0_1_n_n_wf : DotDims.WF S512x96 S96x1024 S512x1024 [1] [0] [0] [1] [] []
  dot_S512x1024_S1024x1024_S512x1024_1_0_0_1_n_n_wf : DotDims.WF S512x1024 S1024x1024 S512x1024 [1] [0] [0] [1] [] []
  dot_S512x1024_S1024x64_S512x64_1_0_0_1_n_n_wf : DotDims.WF S512x1024 S1024x64 S512x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x96.size a ≤ S4096x96.size a
  k0_off2_inb : ∀ k0_t1 : Fin k0_t1_loop.trips, ∀ a, (k0_off2 k0_t1) a + S512x64.size a ≤ S4096x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x96.size a ≤ S4096x96.size a
  hwx0_0 : ∀ i : grid0.Coords, EltTy.bits .bf16 = 32 ∨ (Rect.block (s := S4096x96) S4096x96.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x1024.size a ≤ S96x1024.size a
  hwx0_1 : ∀ i : grid0.Coords, EltTy.bits .bf16 = 32 ∨ (Rect.block (s := S96x1024) S96x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S1024x64.size a
  hwx0_7 : ∀ i : grid0.Coords, EltTy.bits .bf16 = 32 ∨ (Rect.block (s := S1024x64) S1024x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x96x1024.size a ≤ S16x96x1024.size a
  hwx0_9 : ∀ i : grid0.Coords, EltTy.bits .bf16 = 32 ∨ (Rect.block (s := S16x96x1024) S1x96x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x1024.size a ≤ S16x1024x1024.size a
  hwx0_10 : ∀ i : grid0.Coords, EltTy.bits .bf16 = 32 ∨ (Rect.block (s := S16x1024x1024) S1x1024x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x1024.size a ≤ S16x1024x1024.size a
  hwx0_11 : ∀ i : grid0.Coords, EltTy.bits .bf16 = 32 ∨ (Rect.block (s := S16x1024x1024) S1x1024x1024.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024x64.size a ≤ S16x1024x64.size a
  hwx0_12 : ∀ i : grid0.Coords, EltTy.bits .bf16 = 32 ∨ (Rect.block (s := S16x1024x64) S1x1024x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x4096x64.size a ≤ S2x4096x64.size a
  hwx0_13 : ∀ i : grid0.Coords, EltTy.bits .f32 = 32 ∨ (Rect.block (s := S2x4096x64) S1x4096x64.size (cc0_transform_13 i) (hinb0_13 i)).WholeWords (EltTy.packing .f32)

variable [Facts₀]

def dot_S512x96_S96x1024_S512x1024_1_0_0_1_n_n : DotDims S512x96 S96x1024 S512x1024 where
  lhsContracting := [1]
  rhsContracting := [0]
  lhsNonContracting := [0]
  rhsNonContracting := [1]
  lhsBatch := []
  rhsBatch := []
  wf := dot_S512x96_S96x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v12) S4096x96.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S96x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x96x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x1024x1024.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v15) S1x1024x1024.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v16) S1x1024x64.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x4096x64.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S4096x96 : Shape := ⟨2, ![4096, 96]⟩
abbrev S1024x96 : Shape := ⟨2, ![1024, 96]⟩
abbrev S1024 : Shape := ⟨1, ![1024]⟩
abbrev S1024x1024 : Shape := ⟨2, ![1024, 1024]⟩
abbrev S64x1024 : Shape := ⟨2, ![64, 1024]⟩
abbrev S64 : Shape := ⟨1, ![64]⟩
abbrev S16x96x1024 : Shape := ⟨3, ![16, 96, 1024]⟩
abbrev S16x1024x1024 : Shape := ⟨3, ![16, 1024, 1024]⟩
abbrev S16x1024x64 : Shape := ⟨3, ![16, 1024, 64]⟩
abbrev S1x4096x96 : Shape := ⟨3, ![1, 4096, 96]⟩
abbrev S16x4096x96 : Shape := ⟨3, ![16, 4096, 96]⟩
abbrev S96x1024 : Shape := ⟨2, ![96, 1024]⟩
abbrev S1x96x1024 : Shape := ⟨3, ![1, 96, 1024]⟩
abbrev S16x4096x1024 : Shape := ⟨3, ![16, 4096, 1024]⟩
abbrev S1x1x1024 : Shape := ⟨3, ![1, 1, 1024]⟩
abbrev S_ : Shape := ⟨0, ![]⟩
abbrev S1x1024x1024 : Shape := ⟨3, ![1, 1024, 1024]⟩
abbrev S1024x64 : Shape := ⟨2, ![1024, 64]⟩
abbrev S1x1024x64 : Shape := ⟨3, ![1, 1024, 64]⟩
abbrev S16x4096x64 : Shape := ⟨3, ![16, 4096, 64]⟩
abbrev S1x1x64 : Shape := ⟨3, ![1, 1, 64]⟩
abbrev S4096x64 : Shape := ⟨2, ![4096, 64]⟩

abbrev nBuf : Space → Nat
  | .hbm => 61
  | .vmem => 0
  | .smem => 0
  | _ => 0

abbrev bufTy : (tb : Table) → Fin (tcTables nBuf tb) → BufTy
  | .hbm, ⟨0, _⟩ => ⟨S4096x96, .f32⟩
  | .hbm, ⟨1, _⟩ => ⟨S1024x96, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S64x1024, .f32⟩
  | .hbm, ⟨8, _⟩ => ⟨S64, .f32⟩
  | .hbm, ⟨9, _⟩ => ⟨S16x96x1024, .f32⟩
  | .hbm, ⟨10, _⟩ => ⟨S16x1024x1024, .f32⟩
  | .hbm, ⟨11, _⟩ => ⟨S16x1024x1024, .f32⟩
  | .hbm, ⟨12, _⟩ => ⟨S16x1024x64, .f32⟩
  | .hbm, ⟨13, _⟩ => ⟨S1x4096x96, .f32⟩
  | .hbm, ⟨14, _⟩ => ⟨S16x4096x96, .f32⟩
  | .hbm, ⟨15, _⟩ => ⟨S96x1024, .f32⟩
  | .hbm, ⟨16, _⟩ => ⟨S1x96x1024, .f32⟩
  | .hbm, ⟨17, _⟩ => ⟨S16x96x1024, .f32⟩
  | .hbm, ⟨18, _⟩ => ⟨S16x96x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x4096x1024, .f32⟩
  | .hbm, ⟨25, _⟩ => ⟨S16x4096x1024, .f32⟩
  | .hbm, ⟨26, _⟩ => ⟨S1024x1024, .f32⟩
  | .hbm, ⟨27, _⟩ => ⟨S1x1024x1024, .f32⟩
  | .hbm, ⟨28, _⟩ => ⟨S16x1024x1024, .f32⟩
  | .hbm, ⟨29, _⟩ => ⟨S16x1024x1024, .f32⟩
  | .hbm, ⟨30, _⟩ => ⟨S16x4096x1024, .f32⟩
  | .hbm, ⟨31, _⟩ => ⟨S1x1x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096x1024, .f32⟩
  | .hbm, ⟨36, _⟩ => ⟨S16x4096x1024, .f32⟩
  | .hbm, ⟨37, _⟩ => ⟨S1024x1024, .f32⟩
  | .hbm, ⟨38, _⟩ => ⟨S1x1024x1024, .f32⟩
  | .hbm, ⟨39, _⟩ => ⟨S16x1024x1024, .f32⟩
  | .hbm, ⟨40, _⟩ => ⟨S16x1024x1024, .f32⟩
  | .hbm, ⟨41, _⟩ => ⟨S16x4096x1024, .f32⟩
  | .hbm, ⟨42, _⟩ => ⟨S1x1x1024, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x4096x1024, .f32⟩
  | .hbm, ⟨47, _⟩ => ⟨S16x4096x1024, .f32⟩
  | .hbm, ⟨48, _⟩ => ⟨S1024x64, .f32⟩
  | .hbm, ⟨49, _⟩ => ⟨S1x1024x64, .f32⟩
  | .hbm, ⟨50, _⟩ => ⟨S16x1024x64, .f32⟩
  | .hbm, ⟨51, _⟩ => ⟨S16x1024x64, .f32⟩
  | .hbm, ⟨52, _⟩ => ⟨S16x4096x64, .f32⟩
  | .hbm, ⟨53, _⟩ => ⟨S1x1x64, .f32⟩
  | .hbm, ⟨54, _⟩ => ⟨S16x4096x64, .f32⟩
  | .hbm, ⟨55, _⟩ => ⟨S16x4096x64, .f32⟩
  | .hbm, ⟨56, _⟩ => ⟨S_, .f32⟩
  | .hbm, ⟨57, _⟩ => ⟨S4096x64, .f32⟩
  | .hbm, ⟨58, _⟩ => ⟨S_, .f32⟩
  | .hbm, ⟨59, _⟩ => ⟨S4096x64, .f32⟩
  | .hbm, ⟨60, _⟩ => ⟨S4096x64, .f32⟩
  | _, _ => ⟨S4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_cst : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_cst : Ref sig .tc := ⟨.hbm, 34, rfl⟩
abbrev main_call1_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_cst : Ref sig .tc := ⟨.hbm, 45, rfl⟩
abbrev main_call2_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_v37 : Ref sig .tc := ⟨.hbm, 57, rfl⟩
abbrev main_cst_0 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  bcast_S4096x96_S1x4096x96_1_2 : S4096x96.BroadcastsInDim S1x4096x96 (![1, 2] : Fin 2 → Fin S1x4096x96.rank)
  bcast_S1x4096x96_S16x4096x96_0_1_2 : S1x4096x96.BroadcastsInDim S16x4096x96 (![0, 1, 2] : Fin 3 → Fin S16x4096x96.rank)
  transposes_S1024x96_S96x1024_1_0 : S1024x96.Transposes [1, 0] S96x1024
  bcast_S96x1024_S1x96x1024_1_2 : S96x1024.BroadcastsInDim S1x96x1024 (![1, 2] : Fin 2 → Fin S1x96x1024.rank)
  bcast_S1x96x1024_S16x96x1024_0_1_2 : S1x96x1024.BroadcastsInDim S16x96x1024 (![0, 1, 2] : Fin 3 → Fin S16x96x1024.rank)
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  bcast_S_S16x4096x1024 : S_.BroadcastsInDim S16x4096x1024 (![] : Fin 0 → Fin S16x4096x1024.rank)
  transposes_S1024x1024_S1024x1024_1_0 : S1024x1024.Transposes [1, 0] S1024x1024
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  transposes_S64x1024_S1024x64_1_0 : S64x1024.Transposes [1, 0] S1024x64
  bcast_S1024x64_S1x1024x64_1_2 : S1024x64.BroadcastsInDim S1x1024x64 (![1, 2] : Fin 2 → Fin S1x1024x64.rank)
  bcast_S1x1024x64_S16x1024x64_0_1_2 : S1x1024x64.BroadcastsInDim S16x1024x64 (![0, 1, 2] : Fin 3 → Fin S16x1024x64.rank)
  bcast_S64_S1x1x64_2 : S64.BroadcastsInDim S1x1x64 (![2] : Fin 1 → Fin S1x1x64.rank)
  bcast_S1x1x64_S16x4096x64_0_1_2 : S1x1x64.BroadcastsInDim S16x4096x64 (![0, 1, 2] : Fin 3 → Fin S16x4096x64.rank)
  reducesTo_S16x4096x64_S4096x64_d0 : S16x4096x64.ReducesTo [0] S4096x64
  h_S_ : 0 < S_.numel
  bcast_S_S4096x64 : S_.BroadcastsInDim S4096x64 (![] : Fin 0 → Fin S4096x64.rank)
  dot_S16x4096x96_S16x96x1024_S16x4096x1024_2_1_1_2_0_0_wf : DotDims.WF S16x4096x96 S16x96x1024 S16x4096x1024 [2] [1] [1] [2] [0] [0]
  dot_S16x4096x1024_S16x1024x1024_S16x4096x1024_2_1_1_2_0_0_wf : DotDims.WF S16x4096x1024 S16x1024x1024 S16x4096x1024 [2] [1] [1] [2] [0] [0]
  dot_S16x4096x1024_S16x1024x64_S16x4096x64_2_1_1_2_0_0_wf : DotDims.WF S16x4096x1024 S16x1024x64 S16x4096x64 [2] [1] [1] [2] [0] [0]

variable [Facts₀]

def dot_S16x4096x96_S16x96x1024_S16x4096x1024_2_1_1_2_0_0 : DotDims S16x4096x96 S16x96x1024 S16x4096x1024 where
  lhsContracting := [2]
  rhsContracting := [1]
  lhsNonContracting := [1]
  rhsNonContracting := [2]
  lhsBatch := [0]
  rhsBatch := [0]
  wf := dot_S16x4096x96_S16x96x1024_S16x4096x1024_2_1_1_2_0_0_wf
def dot_S16x4096x1024_S16x1024x1024_S16x4096x1024_2_1_1_2_0_0 : DotDims S16x4096x1024 S16x1024x1024 S16x4096x1024 where
  lhsContracting := [2]
  rhsContracting := [1]
  lhsNonContracting := [1]
  rhsNonContracting := [2]
  lhsBatch := [0]
  rhsBatch := [0]
  wf := dot_S16x4096x1024_S16x1024x1024_S16x4096x1024_2_1_1_2_0_0_wf
def dot_S16x4096x1024_S16x1024x64_S16x4096x64_2_1_1_2_0_0 : DotDims S16x4096x1024 S16x1024x64 S16x4096x64 where
  lhsContracting := [2]
  rhsContracting := [1]
  lhsNonContracting := [1]
  rhsNonContracting := [2]
  lhsBatch := [0]
  rhsBatch := [0]
  wf := dot_S16x4096x1024_S16x1024x64_S16x4096x64_2_1_1_2_0_0_wf

class Facts : Prop extends Facts₀ where

variable [Facts]
-- ==== Proof.RowChunkLoop.lean ====
/-
  The row-chunk loop of the kernel body, read as a list of tile stores.

  Inside one grid point the body walks the 4096 rows of the batch in eight chunks of 512 rows. Trip `k` loads rows
  [512k, 512k + 512) of the batch and of the running accumulator, pushes the batch rows through the four masked
  layers, adds the result to the accumulator rows and stores them back through the same rectangle. So one trip
  leaves ONE piece, a store of whole rows [512k, 512k + 512), whose payload depends on the accumulator only through
  those rows (`trip_pieces`). Chunks of different trips share no row, so the rows trip `k` reads back were written by
  no earlier trip: they still hold what the accumulator held when the loop began. Hence the pieces of the first `n`
  trips are `n` tile stores, one axis keeping them apart, each with its payload taken over the loop-entry contents
  (`trips_eq_tiles`).
-/
import proofs.«107710_j82995948027952_2_alg».proof.Proof.Gen.KernelIdeal.Loops
import Idealize.ShloMosaic.Lib.WritesUnit

set_option maxRecDepth 16384

noncomputable section

namespace Cert.KernelIdeal.RowChunkLoop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Every piece among the first `j` tile stores is the store through the rectangle of some tile before `j`. -/
theorem rect_of_mem_tilePieces {s : Shape} {e : EltTy} {Val : EltTy → Type} {NT : ℕ} (tsz : Fin s.rank → ℕ)
    (off : Fin NT → Fin s.rank → ℕ) (inb : ∀ i a, off i a + tsz a ≤ s.size a)
    (P : Fin NT → (⟨s.rank, tsz⟩ : Shape).Idx → Val e) :
    ∀ (j : ℕ) (hj : j ≤ NT) (p : View.Piece Val s e), p ∈ View.tilePieces tsz off inb P j hj →
      ∃ i : Fin NT, i.val < j ∧ p.1 = Rect.unit (off i) tsz (inb i)
  | 0, _, p, hp => by simp [View.tilePieces] at hp
  | j + 1, hj, p, hp => by
    rw [View.tilePieces_succ] at hp
    rcases List.mem_cons.mp hp with rfl | hp
    · exact ⟨⟨j, hj⟩, Nat.lt_succ_self j, rfl⟩
    · obtain ⟨i, hi, e⟩ := rect_of_mem_tilePieces tsz off inb P j (Nat.le_of_succ_le hj) p hp
      exact ⟨i, Nat.lt_succ_of_lt hi, e⟩

/-- What trip `k` stores into rows [512k, 512k + 512) of the accumulator, the accumulator's contents being `f`:
    those rows of `f` plus the last layer's output on the batch's rows [512k, 512k + 512). -/
def chunkPayload (arg2 : Memref sig .tc .vmem S4096x96 .bf16) (arg4 : Memref sig .tc .vmem S1x1024 .f32) (arg6 : Memref sig .tc .vmem S1x1024 .f32) (arg8 : Memref sig .tc .vmem S1x1024 .f32) (arg10 : Memref sig .tc .vmem S1x64 .f32) (arg16 : Memref sig .tc .vmem S4096x64 .f32) (arg17 : Memref sig .tc .vmem S96x1024 .bf16) (arg18 : Memref sig .tc .vmem S1024x1024 .bf16) (arg19 : Memref sig .tc .vmem S1024x1024 .bf16) (arg20 : Memref sig .tc .vmem S1024x64 .bf16) (X_arg2 : BufTy.Contents (Elt F) arg2.view.ty) (X_arg4 : BufTy.Contents (Elt F) arg4.view.ty) (X_arg6 : BufTy.Contents (Elt F) arg6.view.ty) (X_arg8 : BufTy.Contents (Elt F) arg8.view.ty) (X_arg10 : BufTy.Contents (Elt F) arg10.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) (f : BufTy.Contents (Elt F) arg16.view.ty) : FVec F S512x64 .f32 :=
  k0_pay2
    (k0_pay4
      (View.readAt (Elt F) arg2.view (Rect.unit (s := S4096x96) (k0_off1 k) S512x96.size (k0_off1_inb k)).toLoadRect X_arg2)
      (View.readAt (Elt F) arg17.view (Rect.unit (s := S96x1024) ![0, 0] S96x1024.size inb_S96x1024_S96x1024_0_0).toLoadRect X_arg17)
      (View.readAt (Elt F) arg4.view (Rect.unit (s := S1x1024) ![0, 0] S1x1024.size inb_S1x1024_S1x1024_0_0).toLoadRect X_arg4)
      (View.readAt (Elt F) arg18.view (Rect.unit (s := S1024x1024) ![0, 0] S1024x1024.size inb_S1024x1024_S1024x1024_0_0).toLoadRect X_arg18)
      (View.readAt (Elt F) arg6.view (Rect.unit (s := S1x1024) ![0, 0] S1x1024.size inb_S1x1024_S1x1024_0_0).toLoadRect X_arg6)
      (View.readAt (Elt F) arg19.view (Rect.unit (s := S1024x1024) ![0, 0] S1024x1024.size inb_S1024x1024_S1024x1024_0_0).toLoadRect X_arg19)
      (View.readAt (Elt F) arg8.view (Rect.unit (s := S1x1024) ![0, 0] S1x1024.size inb_S1x1024_S1x1024_0_0).toLoadRect X_arg8))
    (View.readAt (Elt F) arg20.view (Rect.unit (s := S1024x64) ![0, 0] S1024x64.size inb_S1024x64_S1024x64_0_0).toLoadRect X_arg20)
    (View.readAt (Elt F) arg10.view (Rect.unit (s := S1x64) ![0, 0] S1x64.size inb_S1x64_S1x64_0_0).toLoadRect X_arg10)
    (View.readAt (Elt F) arg16.view (Rect.unit (s := S4096x64) (k0_off2 k) S512x64.size (k0_off2_inb k)).toLoadRect f)

/-- One trip leaves one piece: the store of `chunkPayload` through rows [512k, 512k + 512). -/
theorem trip_pieces (𝒱 : Variants) (c : Dev nD) (bd : Option 𝒱.V) (i : grid0.Coords) (arg2 : Memref sig .tc .vmem S4096x96 .bf16) (harg2 : arg2.IsWhole) (arg3 : Memref sig .tc .vmem S96x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x64 .bf16) (harg9 : arg9.IsWhole) (arg10 : Memref sig .tc .vmem S1x64 .f32) (harg10 : arg10.IsWhole) (arg11 : Memref sig .tc .vmem S1x96x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x64 .bf16) (harg14 : arg14.IsWhole) (arg15 : Memref sig .tc .vmem S1x4096x64 .f32) (harg15 : arg15.IsWhole) (arg16 : Memref sig .tc .vmem S4096x64 .f32) (harg16 : arg16.IsWhole) (arg17 : Memref sig .tc .vmem S96x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1024x64 .bf16) (harg20 : arg20.IsWhole) (X_arg2 : BufTy.Contents (Elt F) arg2.view.ty) (X_arg4 : BufTy.Contents (Elt F) arg4.view.ty) (X_arg6 : BufTy.Contents (Elt F) arg6.view.ty) (X_arg8 : BufTy.Contents (Elt F) arg8.view.ty) (X_arg10 : BufTy.Contents (Elt F) arg10.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) (f : BufTy.Contents (Elt F) arg16.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg4 X_arg6 X_arg8 X_arg10 X_arg17 X_arg18 X_arg19 X_arg20 k f
      = [(⟨Rect.unit (s := S4096x64) (k0_off2 k) S512x64.size (k0_off2_inb k), chunkPayload arg2 arg4 arg6 arg8 arg10 arg16 arg17 arg18 arg19 arg20 X_arg2 X_arg4 X_arg6 X_arg8 X_arg10 X_arg17 X_arg18 X_arg19 X_arg20 k f⟩ : View.Piece (Elt F) S4096x64 .f32)] := by
  unfold tripL_k0_t1
  unfold trip_k0_t1
  dsimp only
  sl_unfold_run_names
  rfl

/-- The rows a trip reads back were written by no earlier trip: over the first `n` tile stores, trip `n`'s payload is
    its payload over the contents the loop began with. -/
theorem chunkPayload_over_tiles (arg2 : Memref sig .tc .vmem S4096x96 .bf16) (arg4 : Memref sig .tc .vmem S1x1024 .f32) (arg6 : Memref sig .tc .vmem S1x1024 .f32) (arg8 : Memref sig .tc .vmem S1x1024 .f32) (arg10 : Memref sig .tc .vmem S1x64 .f32) (arg16 : Memref sig .tc .vmem S4096x64 .f32) (arg17 : Memref sig .tc .vmem S96x1024 .bf16) (arg18 : Memref sig .tc .vmem S1024x1024 .bf16) (arg19 : Memref sig .tc .vmem S1024x1024 .bf16) (arg20 : Memref sig .tc .vmem S1024x64 .bf16) (X_arg2 : BufTy.Contents (Elt F) arg2.view.ty) (X_arg4 : BufTy.Contents (Elt F) arg4.view.ty) (X_arg6 : BufTy.Contents (Elt F) arg6.view.ty) (X_arg8 : BufTy.Contents (Elt F) arg8.view.ty) (X_arg10 : BufTy.Contents (Elt F) arg10.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G : BufTy.Contents (Elt F) arg16.view.ty)
    (P : Fin k0_t1_loop.trips → (⟨S4096x64.rank, S512x64.size⟩ : Shape).Idx → Elt F .f32)
    (n : ℕ) (hn : n + 1 ≤ k0_t1_loop.trips) :
    chunkPayload arg2 arg4 arg6 arg8 arg10 arg16 arg17 arg18 arg19 arg20 X_arg2 X_arg4 X_arg6 X_arg8 X_arg10 X_arg17 X_arg18 X_arg19 X_arg20 ⟨n, hn⟩
        (arg16.view.writes (Elt F) G (View.tilePieces (s := S4096x64) S512x64.size k0_off2 k0_off2_inb P n (Nat.le_of_succ_le hn)))
      = chunkPayload arg2 arg4 arg6 arg8 arg10 arg16 arg17 arg18 arg19 arg20 X_arg2 X_arg4 X_arg6 X_arg8 X_arg10 X_arg17 X_arg18 X_arg19 X_arg20 ⟨n, hn⟩ G := by
  unfold chunkPayload
  congr 1
  refine View.readAt_writes_of_forall_not_mem arg16.view G _ _ fun j p hp hmem => ?_
  obtain ⟨i, hi, e⟩ := rect_of_mem_tilePieces _ _ _ _ n _ p hp
  rw [e, Rect.mem_set_unit] at hmem
  have h0 := hmem (0 : Fin 2)
  have hj : ((Rect.unit (s := S4096x64) (k0_off2 ⟨n, hn⟩) S512x64.size (k0_off2_inb ⟨n, hn⟩)).toLoadRect.idx j (0 : Fin 2)).val
      = k0_off2 ⟨n, hn⟩ (0 : Fin 2) + 1 * (j (0 : Fin 2)).val := rfl
  have hjlt : (j (0 : Fin 2)).val < 512 := (j (0 : Fin 2)).isLt
  rw [hj] at h0
  have e1 : k0_off2 i (0 : Fin 2) = 512 * i.val := by rw [k0_off2_eq i]; rfl
  have e2 : k0_off2 ⟨n, hn⟩ (0 : Fin 2) = 512 * n := by rw [k0_off2_eq]; rfl
  have e3 : S512x64.size (0 : Fin 2) = 512 := rfl
  omega

/-- The pieces of the first `n` trips, from contents `G` at loop entry: `n` tile stores of whole-row chunks, each
    payload taken over `G`. -/
theorem trips_eq_tiles (𝒱 : Variants) (c : Dev nD) (bd : Option 𝒱.V) (i : grid0.Coords) (arg2 : Memref sig .tc .vmem S4096x96 .bf16) (harg2 : arg2.IsWhole) (arg3 : Memref sig .tc .vmem S96x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x64 .bf16) (harg9 : arg9.IsWhole) (arg10 : Memref sig .tc .vmem S1x64 .f32) (harg10 : arg10.IsWhole) (arg11 : Memref sig .tc .vmem S1x96x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x64 .bf16) (harg14 : arg14.IsWhole) (arg15 : Memref sig .tc .vmem S1x4096x64 .f32) (harg15 : arg15.IsWhole) (arg16 : Memref sig .tc .vmem S4096x64 .f32) (harg16 : arg16.IsWhole) (arg17 : Memref sig .tc .vmem S96x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1024x64 .bf16) (harg20 : arg20.IsWhole) (X_arg2 : BufTy.Contents (Elt F) arg2.view.ty) (X_arg4 : BufTy.Contents (Elt F) arg4.view.ty) (X_arg6 : BufTy.Contents (Elt F) arg6.view.ty) (X_arg8 : BufTy.Contents (Elt F) arg8.view.ty) (X_arg10 : BufTy.Contents (Elt F) arg10.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg16 : BufTy.Contents (Elt F) arg16.view.ty) :
    ∀ (n : ℕ) (hn : n ≤ k0_t1_loop.trips),
      pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg4 X_arg6 X_arg8 X_arg10 X_arg17 X_arg18 X_arg19 X_arg20 G_arg16 n
        = View.tilePieces (s := S4096x64) S512x64.size k0_off2 k0_off2_inb (fun k => chunkPayload arg2 arg4 arg6 arg8 arg10 arg16 arg17 arg18 arg19 arg20 X_arg2 X_arg4 X_arg6 X_arg8 X_arg10 X_arg17 X_arg18 X_arg19 X_arg20 k G_arg16) n hn
  | 0, _ => rfl
  | n + 1, hn => by
    have ih := trips_eq_tiles 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg4 X_arg6 X_arg8 X_arg10 X_arg17 X_arg18 X_arg19 X_arg20 G_arg16 n (Nat.le_of_succ_le hn)
    have hs : pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg4 X_arg6 X_arg8 X_arg10 X_arg17 X_arg18 X_arg19 X_arg20 G_arg16 (n + 1)
        = tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg4 X_arg6 X_arg8 X_arg10 X_arg17 X_arg18 X_arg19 X_arg20 ⟨n, hn⟩ (arg16.view.writes (Elt F) G_arg16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg4 X_arg6 X_arg8 X_arg10 X_arg17 X_arg18 X_arg19 X_arg20 G_arg16 n))
          ++ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg4 X_arg6 X_arg8 X_arg10 X_arg17 X_arg18 X_arg19 X_arg20 G_arg16 n :=
      pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg4 X_arg6 X_arg8 X_arg10 X_arg17 X_arg18 X_arg19 X_arg20 G_arg16 ⟨n, hn⟩
    rw [hs, trip_pieces, ih, View.tilePieces_succ, chunkPayload_over_tiles]
    rfl

end Cert.KernelIdeal.RowChunkLoop

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibAffineRow.lean ====
/-
  A general fact about a dense layer whose bias is already a one-row matrix, at the ideal values.

  A kernel's matrix product with the plain dimension numbers (rows by columns, one contracted axis, no batch axis)
  accumulated into the zero splat, plus a bias kept as a [1, n] row (cast to its own shape, as a block load leaves it) and
  broadcast down the rows, read at entry (r, c), is the inner product of row r of the left factor with column c of the
  right one plus the bias's entry c; and the same number as one function `affine A B b` of the output index, so that a
  tiled kernel's output array can be stated as that one function of its three input arrays.
-/
import Idealize.ShloMosaic.Lib.ValueIdx
import Idealize.ShloMosaic.Lib.ValueLayout
import Idealize.ShloMosaic.Lib.Pipeline.Value
import Idealize.ShloMosaic.PureOps.Ideal.Laws
import proofs.«107710_j82995948027952_2_alg».proof.Proof.LibMatmulPlain

noncomputable section

open scoped BigOperators

namespace Cert.LibAffineRow

open Idealize.ShloMosaic Idealize.ShloMosaic.ValueIdx

/-- A matrix product with the plain dimension numbers into the zero splat, plus a one-row bias (cast to its own shape)
    broadcast down the rows, at entry (r, c): the inner product of row r with column c, plus the bias's entry c. -/
theorem affine_row_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨2, ![1, n]⟩ .f32)
    (h1 : (⟨2, ![1, n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix2 (0 : Fin 1) c) := by
  subst hdd
  rw [addf_apply, Cert.LibMatmulPlain.matmul_plain_zero_apply, broadcastTo_1b_ab_apply, shapeCast_self]

/-- The affine map of a matrix A [m, k], weights B [k, n] and a one-row bias b [1, n], as one function of the output index. -/
def affine {m k n : Nat} (A : (⟨2, ![m, k]⟩ : Shape).Idx → EReal) (B : (⟨2, ![k, n]⟩ : Shape).Idx → EReal)
    (b : (⟨2, ![1, n]⟩ : Shape).Idx → EReal) : (⟨2, ![m, n]⟩ : Shape).Idx → EReal :=
  fun i => (∑ κ : Fin k, A (ix2 (⟨(i 0).val, idx2_lt0 i⟩ : Fin m) κ) * B (ix2 κ (⟨(i 1).val, idx2_lt1 i⟩ : Fin n)))
    + b (ix2 (0 : Fin 1) (⟨(i 1).val, idx2_lt1 i⟩ : Fin n))

/-- At the index with coordinates (r, q) it is the inner product of row r with column q, plus the bias's entry q. -/
theorem affine_ix2 {m k n : Nat} (A : (⟨2, ![m, k]⟩ : Shape).Idx → EReal) (B : (⟨2, ![k, n]⟩ : Shape).Idx → EReal)
    (b : (⟨2, ![1, n]⟩ : Shape).Idx → EReal) (r : Fin m) (q : Fin n) :
    affine A B b (ix2 r q) = (∑ κ : Fin k, A (ix2 r κ) * B (ix2 κ q)) + b (ix2 (0 : Fin 1) q) := rfl

end Cert.LibAffineRow

end
-- ==== Proof.Consts.lean ====
/-
  The two float words that differ between the two programs, as the reals they denote: the kernel scales each
  core's partial sum by the word for 2⁻⁴, the reference divides the whole sum by the word for 16. Both are exact
  binary values, so the first is the real 1/16 and the second the real 16. The zero word is the library's.
-/
import Idealize.ShloMosaic.PureOps.Ideal

noncomputable section

namespace Cert.EnsembleConsts

open Idealize.ShloMosaic

/-- The word `0x3D800000` (2⁻⁴) denotes the real `1/16`. -/
theorem ofBits_sixteenth : Ideal.ofBits .f32 0x3D800000#32 = ((1 / 16 : ℝ) : EReal) := by
  simp [Ideal.ofBits, Ideal.ieee, -EReal.coe_mul]; norm_num

/-- The word `0x41800000` denotes the real `16`. -/
theorem ofBits_sixteen : Ideal.ofBits .f32 0x41800000#32 = ((16 : ℝ) : EReal) := by
  simp [Ideal.ofBits, Ideal.ieee, -EReal.coe_mul]; norm_num

end Cert.EnsembleConsts

end
-- ==== Proof.ChunkPayloads.lean ====
/-
  The kernel body's arithmetic, entry by entry, at the ideal values.

  Each value the idealized kernel body stores is a composition of pointwise operations, casts of a shape to itself or
  across a leading unit axis, splats, and matrix products with the plain dimension numbers accumulated into the zero
  splat. On the extended reals every pointwise operation is its textbook one and a change of format is the identity, so
  each stored value, read at an index written by its coordinates, is a plain expression in sums, products and max:

  * the masked weights (four of them): the weight's entry times the mask's entry, the mask block carrying a leading
    unit axis;
  * the copy of the last masked weight: the entry itself;
  * the cleared accumulator: zero;
  * the scaled partial sum: the accumulator's entry times 1/16;
  * the accumulated output chunk: the accumulator's entry plus the last dense layer at that entry;
  * the hidden activations of a row chunk: three dense layers, each followed by the positive part.
-/
import proofs.«107710_j82995948027952_2_alg».proof.Proof.Gen.KernelIdeal.Skeleton
import proofs.«107710_j82995948027952_2_alg».proof.Proof.LibAffineRow
import proofs.«107710_j82995948027952_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.ChunkPayloads

open Cert.KernelIdeal Cert.KernelIdeal.Gen Idealize.ShloMosaic Idealize.ShloMosaic.ValueIdx

/-- The first layer's masked weight at (q, j): the weight's entry times the mask's entry (0, q, j). -/
theorem pay6_at (v3 : Vec Ideal S96x1024 .bf16) (v5 : Vec Ideal S1x96x1024 .bf16) (q : Fin 96) (j : Fin 1024) :
    k0_pay6 (F := Ideal) v3 v5 (ix2 q j) = v3 (ix2 q j) * v5 (ix3 (0 : Fin 1) q j) := by
  unfold k0_pay6
  rw [shapeCast_self, mulf_apply, shapeCast_self, shapeCast_1ab_ab_apply]

/-- A block cast to its own shape is the block. -/
theorem pay9_at (v27 : Vec Ideal S1024x64 .bf16) (q : Fin 1024) (p : Fin 64) :
    k0_pay9 (F := Ideal) v27 (ix2 q p) = v27 (ix2 q p) := by
  unfold k0_pay9
  rw [shapeCast_self]

/-- The cleared accumulator is zero at every entry. -/
theorem pay5_at (n : Fin 4096) (p : Fin 64) : k0_pay5 (F := Ideal) (ix2 n p) = 0 := by
  unfold k0_pay5
  rw [shapeCast_self, broadcast_apply]
  exact Ideal.ofBits_zero_f32

/-- The scaled partial sum at (0, n, p): the accumulator's entry (n, p) times 1/16. -/
theorem pay3_at (v39 : Vec Ideal S4096x64 .f32) (n : Fin 4096) (p : Fin 64) :
    k0_pay3 (F := Ideal) v39 (ix3 (0 : Fin 1) n p) = v39 (ix2 n p) * ((1 / 16 : ℝ) : EReal) := by
  unfold k0_pay3
  rw [shapeCast_ab_1ab_apply, mulf_apply, broadcast_apply]
  exact congrArg (fun t => v39 (ix2 n p) * t) Cert.EnsembleConsts.ofBits_sixteenth

/-- The second layer's masked weight at (q, j): the weight's entry times the mask's entry (0, q, j). -/
theorem pay7_at (v11 : Vec Ideal S1024x1024 .bf16) (v13 : Vec Ideal S1x1024x1024 .bf16) (q j : Fin 1024) :
    k0_pay7 (F := Ideal) v11 v13 (ix2 q j) = v11 (ix2 q j) * v13 (ix3 (0 : Fin 1) q j) := by
  unfold k0_pay7
  rw [shapeCast_self, mulf_apply, shapeCast_self, shapeCast_1ab_ab_apply]

/-- The third layer's masked weight at (q, j): the weight's entry times the mask's entry (0, q, j). -/
theorem pay8_at (v19 : Vec Ideal S1024x1024 .bf16) (v21 : Vec Ideal S1x1024x1024 .bf16) (q j : Fin 1024) :
    k0_pay8 (F := Ideal) v19 v21 (ix2 q j) = v19 (ix2 q j) * v21 (ix3 (0 : Fin 1) q j) := by
  unfold k0_pay8
  rw [shapeCast_self, mulf_apply, shapeCast_self, shapeCast_1ab_ab_apply]

/-- The last layer's masked weight at (q, p): the weight's entry times the mask's entry (0, q, p). -/
theorem pay1_at (v28 : FVec Ideal S1024x64 .bf16) (v29 : Vec Ideal S1x1024x64 .bf16) (q : Fin 1024) (p : Fin 64) :
    k0_pay1 (F := Ideal) v28 v29 (ix2 q p) = v28 (ix2 q p) * v29 (ix3 (0 : Fin 1) q p) := by
  unfold k0_pay1
  rw [shapeCast_self, mulf_apply, shapeCast_1ab_ab_apply]

/-- The positive part of a dense layer with a one-row bias, narrowed to the shorter format (the identity on the
    extended reals), at entry (r, c): the larger of zero and the inner product of row r with column c plus the bias's
    entry c. -/
theorem relu_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨2, ![1, n]⟩ .f32)
    (h1 : (⟨2, ![1, n]⟩ : Shape).ShapeCasts ⟨2, ![1, n]⟩) (hb : (⟨2, ![1, n]⟩ : Shape).Broadcasts ⟨2, ![m, n]⟩)
    (hlt : FTy.bits .bf16 < FTy.bits .f32) (r : Fin m) (c : Fin n) :
    (truncf .bf16
        (maximumf
          (addf (matmul dd prec A B (constant (F := Ideal) ⟨2, ![m, n]⟩ .f32 0x00000000#32))
            (broadcastTo ⟨2, ![m, n]⟩ (shapeCast ⟨2, ![1, n]⟩ b h1) hb))
          (broadcast ⟨2, ![m, n]⟩ (Scalar.ofBits (F := Ideal) .f32 0x00000000#32)))
        hlt : FVec Ideal ⟨2, ![m, n]⟩ .bf16) (ix2 r c)
      = max ((∑ q : Fin k, A (ix2 r q) * B (ix2 q c)) + b (ix2 (0 : Fin 1) c)) 0 := by
  rw [truncf_apply, maximumf_apply, broadcast_apply, Cert.LibAffineRow.affine_row_apply dd hdd]
  exact congrArg (max _) Ideal.ofBits_zero_f32

/-- The accumulated output chunk at (r, p): the accumulator's entry plus the last dense layer there (the inner product
    of row r of the activations with column p of the weights, plus the bias's entry p). -/
theorem pay2_at (v72 : FVec Ideal S512x1024 .bf16) (v73 : Vec Ideal S1024x64 .bf16) (v75 : Vec Ideal S1x64 .f32)
    (v80 : Vec Ideal S512x64 .f32) (r : Fin 512) (p : Fin 64) :
    k0_pay2 (F := Ideal) v72 v73 v75 v80 (ix2 r p)
      = v80 (ix2 r p) + ((∑ q : Fin 1024, v72 (ix2 r q) * v73 (ix2 q p)) + v75 (ix2 (0 : Fin 1) p)) := by
  unfold k0_pay2
  rw [shapeCast_self, addf_apply]
  exact congrArg (fun t => v80 (ix2 r p) + t)
    (Cert.LibAffineRow.affine_row_apply dot_S512x1024_S1024x64_S512x64_1_0_0_1_n_n rfl none v72 v73 v75 _ _ r p)

/-- The hidden activations of a row chunk at (r, j): three dense layers, each followed by the positive part, read from
    the outermost inwards; each layer's left factor is the previous layer's value, so one layer is opened at a time. -/
theorem pay4_at (v44 : Vec Ideal S512x96 .bf16) (v46 : Vec Ideal S96x1024 .bf16) (v48 : Vec Ideal S1x1024 .f32)
    (v55 : Vec Ideal S1024x1024 .bf16) (v57 : Vec Ideal S1x1024 .f32) (v64 : Vec Ideal S1024x1024 .bf16)
    (v66 : Vec Ideal S1x1024 .f32) (r : Fin 512) (j : Fin 1024) :
    k0_pay4 (F := Ideal) v44 v46 v48 v55 v57 v64 v66 (ix2 r j)
      = max ((∑ q : Fin 1024,
              (max ((∑ q' : Fin 1024,
                    (max ((∑ q'' : Fin 96, v44 (ix2 r q'') * v46 (ix2 q'' q')) + v48 (ix2 (0 : Fin 1) q')) 0)
                      * v55 (ix2 q' q)) + v57 (ix2 (0 : Fin 1) q)) 0) * v64 (ix2 q j))
            + v66 (ix2 (0 : Fin 1) j)) 0 := by
  unfold k0_pay4
  -- the third layer, over whatever its left factor is
  refine (relu_affine_apply dot_S512x1024_S1024x1024_S512x1024_1_0_0_1_n_n rfl none _ v64 v66 _ _ _ r j).trans ?_
  refine congrArg (fun t => max (t + v66 (ix2 (0 : Fin 1) j)) 0)
    (Finset.sum_congr rfl fun q _ => congrArg (fun t => t * v64 (ix2 q j)) ?_)
  -- the second layer at (r, q)
  refine (relu_affine_apply dot_S512x1024_S1024x1024_S512x1024_1_0_0_1_n_n rfl none _ v55 v57 _ _ _ r q).trans ?_
  refine congrArg (fun t => max (t + v57 (ix2 (0 : Fin 1) q)) 0)
    (Finset.sum_congr rfl fun q' _ => congrArg (fun t => t * v55 (ix2 q' q)) ?_)
  -- the first layer at (r, q'); its left factor is the input block cast to its own shape
  refine (relu_affine_apply dot_S512x96_S96x1024_S512x1024_1_0_0_1_n_n rfl none _ v46 v48 _ _ _ r q').trans ?_
  rw [shapeCast_self]

end Cert.KernelIdeal.ChunkPayloads

end
-- ==== Proof.Ensemble.lean ====
/-
  An ensemble of sixteen masked multilayer perceptrons sharing one set of weights, as ONE function of the
  thirteen argument arrays, entry by entry, on the extended reals.

  Member `b` masks each weight matrix entrywise with its own 0/1 connectivity mask, so its layer-`ℓ` weight at
  (input `q`, output `j`) is `Wℓ[j, q] · maskℓ[b, q, j]` (`mw0` … `mw3`). A hidden layer is the positive part of
  an affine map, `h(n, j) = max(Σ_q prev(n, q) · mw(q, j) + bias(j), 0)`; the last layer has no positive part
  (`out`). The result is the mean over the sixteen members, `(0 + Σ_b out_b(n, p)) / 16` (`mean`).

  The same mean arranged by halves: members `8c … 8c+7` are summed and scaled by `1/16` (`half`), and the two
  halves added. The two arrangements agree on ALL extended reals, infinities included: dividing by the real 16
  is multiplying by the real 1/16, and multiplication by a nonnegative real distributes over `+` on the
  extended reals (no finiteness of the summands is needed). That is `mean_eq_halves`.
-/
import Idealize.ShloMosaic.PureOps.Ideal
import Idealize.ShloMosaic.Lib.ValueIdx

noncomputable section

open scoped BigOperators

namespace Cert.Ensemble

open Idealize.ShloMosaic Idealize.ShloMosaic.ValueIdx

/-- The thirteen argument arrays: the batch `x` [4096, 96]; weights `w0` [1024, 96], `w1`, `w2` [1024, 1024],
    `w3` [64, 1024] (output × input); biases; and the sixteen members' masks `m0` [16, 96, 1024], `m1`, `m2`
    [16, 1024, 1024], `m3` [16, 1024, 64] (member × input × output). -/
structure Net where
  x  : (⟨2, ![4096, 96]⟩ : Shape).Idx → EReal
  w0 : (⟨2, ![1024, 96]⟩ : Shape).Idx → EReal
  b0 : (⟨1, ![1024]⟩ : Shape).Idx → EReal
  w1 : (⟨2, ![1024, 1024]⟩ : Shape).Idx → EReal
  b1 : (⟨1, ![1024]⟩ : Shape).Idx → EReal
  w2 : (⟨2, ![1024, 1024]⟩ : Shape).Idx → EReal
  b2 : (⟨1, ![1024]⟩ : Shape).Idx → EReal
  w3 : (⟨2, ![64, 1024]⟩ : Shape).Idx → EReal
  b3 : (⟨1, ![64]⟩ : Shape).Idx → EReal
  m0 : (⟨3, ![16, 96, 1024]⟩ : Shape).Idx → EReal
  m1 : (⟨3, ![16, 1024, 1024]⟩ : Shape).Idx → EReal
  m2 : (⟨3, ![16, 1024, 1024]⟩ : Shape).Idx → EReal
  m3 : (⟨3, ![16, 1024, 64]⟩ : Shape).Idx → EReal

/-- Member `b`'s masked weight of layer 0 at (input `q`, output `j`). -/
def mw0 (N : Net) (b : Fin 16) (q : Fin 96) (j : Fin 1024) : EReal := N.w0 (ix2 j q) * N.m0 (ix3 b q j)
/-- Member `b`'s masked weight of layer 1. -/
def mw1 (N : Net) (b : Fin 16) (q : Fin 1024) (j : Fin 1024) : EReal := N.w1 (ix2 j q) * N.m1 (ix3 b q j)
/-- Member `b`'s masked weight of layer 2. -/
def mw2 (N : Net) (b : Fin 16) (q : Fin 1024) (j : Fin 1024) : EReal := N.w2 (ix2 j q) * N.m2 (ix3 b q j)
/-- Member `b`'s masked weight of layer 3. -/
def mw3 (N : Net) (b : Fin 16) (q : Fin 1024) (p : Fin 64) : EReal := N.w3 (ix2 p q) * N.m3 (ix3 b q p)

/-- First hidden layer of member `b` at (row `n`, unit `j`). -/
def h1 (N : Net) (b : Fin 16) (n : Fin 4096) (j : Fin 1024) : EReal :=
  max ((∑ q : Fin 96, N.x (ix2 n q) * mw0 N b q j) + N.b0 (ix1 j)) 0
/-- Second hidden layer. -/
def h2 (N : Net) (b : Fin 16) (n : Fin 4096) (j : Fin 1024) : EReal :=
  max ((∑ q : Fin 1024, h1 N b n q * mw1 N b q j) + N.b1 (ix1 j)) 0
/-- Third hidden layer. -/
def h3 (N : Net) (b : Fin 16) (n : Fin 4096) (j : Fin 1024) : EReal :=
  max ((∑ q : Fin 1024, h2 N b n q * mw2 N b q j) + N.b2 (ix1 j)) 0
/-- Member `b`'s output at (row `n`, column `p`): the last affine layer, no positive part. -/
def out (N : Net) (b : Fin 16) (n : Fin 4096) (p : Fin 64) : EReal :=
  (∑ q : Fin 1024, h3 N b n q * mw3 N b q p) + N.b3 (ix1 p)

/-- The ensemble mean at an entry: the sixteen outputs summed from zero, divided by 16. -/
def mean (N : Net) : (⟨2, ![4096, 64]⟩ : Shape).Idx → EReal :=
  fun i => Ideal.div (0 + ∑ b : Fin 16, out N b (i 0) (i 1)) ((16 : ℝ) : EReal)

/-- A member's output by its number, zero past the sixteenth: the form a running sum over consecutive
    members is stated in. -/
def outN (N : Net) (b : ℕ) (n : Fin 4096) (p : Fin 64) : EReal :=
  if h : b < 16 then out N ⟨b, h⟩ n p else 0

/-- Half `c` of the mean: members `8c … 8c+7` summed, scaled by the real `1/16`. -/
def half (N : Net) (c : ℕ) (n : Fin 4096) (p : Fin 64) : EReal :=
  (∑ j ∈ Finset.range 8, outN N (8 * c + j) n p) * ((1 / 16 : ℝ) : EReal)

/-- The mean is the two scaled halves added from zero, on all extended reals. -/
theorem mean_eq_halves (N : Net) (i : (⟨2, ![4096, 64]⟩ : Shape).Idx) :
    mean N i = 0 + ∑ c : Fin 2, half N c.val (i 0) (i 1) := by
  have hsum : ∑ b : Fin 16, out N b (i 0) (i 1)
      = ∑ j ∈ Finset.range 8, outN N (8 * 0 + j) (i 0) (i 1) + ∑ j ∈ Finset.range 8, outN N (8 * 1 + j) (i 0) (i 1) := by
    have h16 : ∑ b : Fin 16, out N b (i 0) (i 1) = ∑ b ∈ Finset.range 16, outN N b (i 0) (i 1) := by
      rw [Finset.sum_range]
      refine Finset.sum_congr rfl fun b _ => ?_
      unfold outN; rw [dif_pos b.isLt]
    rw [h16, show (16 : ℕ) = 8 + 8 from rfl, Finset.sum_range_add]
    simp only [Nat.mul_zero, Nat.zero_add, Nat.mul_one]
  unfold mean half
  rw [Ideal.div_coe (by norm_num : (16 : ℝ) ≠ 0), Fin.sum_univ_two, zero_add, zero_add, hsum]
  exact EReal.right_distrib_of_nonneg_of_ne_top (by positivity) (EReal.coe_ne_top _) _ _

end Cert.Ensemble

end
-- ==== Proof.MemberOnBlocks.lean ====
/-
  One ensemble member computed from the blocks the kernel body sees at one grid point.

  At a grid point the body holds the whole batch `x0` [4096, 96], the four weight matrices already transposed
  (input × output: `x1` [96, 1024], `x3`, `x5` [1024, 1024], `x7` [1024, 64]), the four biases as one-row matrices
  (`x2`, `x4`, `x6` [1, 1024], `x8` [1, 64]) and ONE member's masks as one-slab arrays (`x9` [1, 96, 1024], `x10`,
  `x11` [1, 1024, 1024], `x12` [1, 1024, 64]). From these the member's output at (row n, column p) is the same
  nest of affine maps and positive parts as in the specification, with the masked weight of a layer at
  (input q, output j) spelled `weight(q, j) · mask(0, q, j)` (`blockOut`).

  When the blocks are the argument arrays read the way the launch stages them — weights transposed, biases as rows,
  the mask slab that of member `b` — this is the specification's `out N b` (`blockOut_eq_out`): the two spell the
  same sums over the same numbers.
-/
import proofs.«107710_j82995948027952_2_alg».proof.Proof.Ensemble

noncomputable section

open scoped BigOperators

namespace Cert.Ensemble

open Idealize.ShloMosaic Idealize.ShloMosaic.ValueIdx

section Blocks

variable (x0 : (⟨2, ![4096, 96]⟩ : Shape).Idx → EReal) (x1 : (⟨2, ![96, 1024]⟩ : Shape).Idx → EReal)
  (x2 : (⟨2, ![1, 1024]⟩ : Shape).Idx → EReal) (x3 : (⟨2, ![1024, 1024]⟩ : Shape).Idx → EReal)
  (x4 : (⟨2, ![1, 1024]⟩ : Shape).Idx → EReal) (x5 : (⟨2, ![1024, 1024]⟩ : Shape).Idx → EReal)
  (x6 : (⟨2, ![1, 1024]⟩ : Shape).Idx → EReal) (x7 : (⟨2, ![1024, 64]⟩ : Shape).Idx → EReal)
  (x8 : (⟨2, ![1, 64]⟩ : Shape).Idx → EReal) (x9 : (⟨3, ![1, 96, 1024]⟩ : Shape).Idx → EReal)
  (x10 x11 : (⟨3, ![1, 1024, 1024]⟩ : Shape).Idx → EReal) (x12 : (⟨3, ![1, 1024, 64]⟩ : Shape).Idx → EReal)

/-- First hidden layer from the blocks, at (row `n`, unit `j`). -/
def bh1 (n : Fin 4096) (j : Fin 1024) : EReal :=
  max ((∑ q : Fin 96, x0 (ix2 n q) * (x1 (ix2 q j) * x9 (ix3 (0 : Fin 1) q j))) + x2 (ix2 (0 : Fin 1) j)) 0
/-- Second hidden layer from the blocks. -/
def bh2 (n : Fin 4096) (j : Fin 1024) : EReal :=
  max ((∑ q : Fin 1024, bh1 x0 x1 x2 x9 n q * (x3 (ix2 q j) * x10 (ix3 (0 : Fin 1) q j))) + x4 (ix2 (0 : Fin 1) j)) 0
/-- Third hidden layer from the blocks. -/
def bh3 (n : Fin 4096) (j : Fin 1024) : EReal :=
  max ((∑ q : Fin 1024, bh2 x0 x1 x2 x3 x4 x9 x10 n q * (x5 (ix2 q j) * x11 (ix3 (0 : Fin 1) q j))) + x6 (ix2 (0 : Fin 1) j)) 0
/-- The member's output from the blocks, at (row `n`, column `p`). -/
def blockOut (n : Fin 4096) (p : Fin 64) : EReal :=
  (∑ q : Fin 1024, bh3 x0 x1 x2 x3 x4 x5 x6 x9 x10 x11 n q * (x7 (ix2 q p) * x12 (ix3 (0 : Fin 1) q p))) + x8 (ix2 (0 : Fin 1) p)

/-- Blocks that are the argument arrays as the launch stages them give the specification's member `b`. -/
theorem blockOut_eq_out (N : Net) (b : Fin 16)
    (h0 : ∀ n q, x0 (ix2 n q) = N.x (ix2 n q))
    (h1 : ∀ q j, x1 (ix2 q j) = N.w0 (ix2 j q)) (h2 : ∀ j, x2 (ix2 (0 : Fin 1) j) = N.b0 (ix1 j))
    (h3 : ∀ q j, x3 (ix2 q j) = N.w1 (ix2 j q)) (h4 : ∀ j, x4 (ix2 (0 : Fin 1) j) = N.b1 (ix1 j))
    (h5 : ∀ q j, x5 (ix2 q j) = N.w2 (ix2 j q)) (h6 : ∀ j, x6 (ix2 (0 : Fin 1) j) = N.b2 (ix1 j))
    (h7 : ∀ q p, x7 (ix2 q p) = N.w3 (ix2 p q)) (h8 : ∀ p, x8 (ix2 (0 : Fin 1) p) = N.b3 (ix1 p))
    (h9 : ∀ q j, x9 (ix3 (0 : Fin 1) q j) = N.m0 (ix3 b q j))
    (h10 : ∀ q j, x10 (ix3 (0 : Fin 1) q j) = N.m1 (ix3 b q j))
    (h11 : ∀ q j, x11 (ix3 (0 : Fin 1) q j) = N.m2 (ix3 b q j))
    (h12 : ∀ q p, x12 (ix3 (0 : Fin 1) q p) = N.m3 (ix3 b q p))
    (n : Fin 4096) (p : Fin 64) :
    blockOut x0 x1 x2 x3 x4 x5 x6 x7 x8 x9 x10 x11 x12 n p = out N b n p := by
  have e1 : ∀ n j, bh1 x0 x1 x2 x9 n j = Cert.Ensemble.h1 N b n j := fun n j => by
    unfold bh1 Cert.Ensemble.h1 mw0
    simp only [h0, h1, h2, h9]
  have e2 : ∀ n j, bh2 x0 x1 x2 x3 x4 x9 x10 n j = Cert.Ensemble.h2 N b n j := fun n j => by
    unfold bh2 Cert.Ensemble.h2 mw1
    simp only [e1, h3, h4, h10]
  have e3 : ∀ n j, bh3 x0 x1 x2 x3 x4 x5 x6 x9 x10 x11 n j = Cert.Ensemble.h3 N b n j := fun n j => by
    unfold bh3 Cert.Ensemble.h3 mw2
    simp only [e2, h5, h6, h11]
  unfold blockOut out mw3
  simp only [e3, h7, h8, h12]

end Blocks

end Cert.Ensemble

end
-- ==== Proof.LibWholeStores.lean ====
/-
  Reading back what whole-buffer stores left.

  A store through the rectangle that is the whole shape at zero offsets replaces everything: whatever was stored before
  it, the buffer then reads as its payload; a load covered by such a store reads the payload;
  and a load of the whole shape reads the contents as they are.
-/
import Idealize.ShloMosaic.Lib.Pipeline.Value
import Idealize.ShloMosaic.Lib.Pipeline.FrameBody

noncomputable section

namespace Cert.WholeStores

open Idealize.ShloMosaic

variable {sig : RefSig} {κ : Kind} {sp : Space} {Val : EltTy → Type} [∀ e, Nonempty (Val e)] {S : Shape} {e : EltTy}

/-- The two zero offsets of a rank-2 shape, however spelt. -/
theorem zero2 : (![0, 0] : Fin 2 → Nat) = fun _ => 0 := by
  funext a
  match a with
  | ⟨0, _⟩ => rfl
  | ⟨1, _⟩ => rfl

/-- After a whole-shape store, last of any stores, the buffer reads as that store's payload. -/
theorem read_writes_whole (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon v f _ (fun y => ⟨_, List.mem_cons.mpr (Or.inl rfl), View.mem_set_unit_zero h inb y⟩),
    View.canon_cons_unit_zero h inb w L]

/-- A whole-shape load covered by a whole-shape store, last of any stores, reads that store's payload. -/
theorem readCov_whole (v : View sig κ sp S e) {off : Fin S.rank → Nat} (h : off = fun _ => 0)
    (inb : ∀ a, off a + S.size a ≤ S.size a) (w : S.Idx → Val e) (L : List (View.Piece Val S e)) :
    v.readCov (⟨Rect.unit off S.size inb, w⟩ :: L) (Rect.unit off S.size inb).toLoadRect = w := by
  rw [View.readCov_eq_canon_ld v _ _ (fun y => ⟨_, List.mem_cons.mpr (Or.inl rfl), View.mem_set_unit_zero h inb y⟩),
    View.canon_cons_unit_zero h inb w L, View.ld_unit_zero h inb]

/-- A whole-shape load reads the contents as they are. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

end Cert.WholeStores

end
-- ==== Proof.PointAccumulator.lean ====
/-
  The accumulator after the row-chunk loop, at an entry.

  Whatever the accumulator held when the loop began (`G`), after the eight trips — read back through any view of the
  shape, over any earlier contents, since the eight chunks cover it — its entry (n, p) is that value plus
  one ensemble member's output at (n, p): row n lies in exactly one chunk, ⌊n / 512⌋, whose trip stored "the old rows
  plus the last layer's output on the batch's rows of the chunk", and no other trip touched row n. The member's output
  is `Cert.Ensemble.blockOut` of what the staged buffers read as: the batch, the four masked weights (weight times
  mask, computed into scratch before the loop) and the four one-row biases (`loop_entry`).
-/
import proofs.«107710_j82995948027952_2_alg».proof.Proof.RowChunkLoop
import proofs.«107710_j82995948027952_2_alg».proof.Proof.ChunkPayloads
import proofs.«107710_j82995948027952_2_alg».proof.Proof.MemberOnBlocks
import proofs.«107710_j82995948027952_2_alg».proof.Proof.LibWholeStores

set_option maxRecDepth 16384

noncomputable section

open scoped BigOperators

namespace Cert.KernelIdeal.PointAccumulator

open Cert.KernelIdeal Cert.KernelIdeal.Gen Cert.KernelIdeal.RowChunkLoop Cert.KernelIdeal.ChunkPayloads
open Idealize.ShloMosaic Idealize.ShloMosaic.ValueIdx Idealize.ShloMosaic.TcCoe
open Idealize.SL Idealize.SL.Sem

/-- The loop makes eight trips. -/
theorem trips_eq : k0_t1_loop.trips = 8 := by decide

/-- Entry (n, p) of the accumulator after the loop: its value at loop entry plus the member's output there. -/
theorem loop_entry (𝒱 : Variants) (c : Dev nD) (bd : Option 𝒱.V) (i : grid0.Coords) (arg2 : Memref sig .tc .vmem S4096x96 .bf16) (harg2 : arg2.IsWhole) (arg3 : Memref sig .tc .vmem S96x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x64 .bf16) (harg9 : arg9.IsWhole) (arg10 : Memref sig .tc .vmem S1x64 .f32) (harg10 : arg10.IsWhole) (arg11 : Memref sig .tc .vmem S1x96x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x64 .bf16) (harg14 : arg14.IsWhole) (arg15 : Memref sig .tc .vmem S1x4096x64 .f32) (harg15 : arg15.IsWhole) (arg16 : Memref sig .tc .vmem S4096x64 .f32) (harg16 : arg16.IsWhole) (arg17 : Memref sig .tc .vmem S96x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1024x64 .bf16) (harg20 : arg20.IsWhole) (X_arg2 : BufTy.Contents (Elt Ideal) arg2.view.ty) (X_arg4 : BufTy.Contents (Elt Ideal) arg4.view.ty) (X_arg6 : BufTy.Contents (Elt Ideal) arg6.view.ty) (X_arg8 : BufTy.Contents (Elt Ideal) arg8.view.ty) (X_arg10 : BufTy.Contents (Elt Ideal) arg10.view.ty) (X_arg17 : BufTy.Contents (Elt Ideal) arg17.view.ty) (X_arg18 : BufTy.Contents (Elt Ideal) arg18.view.ty) (X_arg19 : BufTy.Contents (Elt Ideal) arg19.view.ty) (X_arg20 : BufTy.Contents (Elt Ideal) arg20.view.ty)
    (G : BufTy.Contents (Elt Ideal) arg16.view.ty)
    {κ' : Kind} {sp' : Space} (v : View sig κ' sp' S4096x64 .f32) (f : v.ty.Contents (Elt Ideal))
    (x0 : (⟨2, ![4096, 96]⟩ : Shape).Idx → EReal) (x1 : (⟨2, ![96, 1024]⟩ : Shape).Idx → EReal)
    (x2 : (⟨2, ![1, 1024]⟩ : Shape).Idx → EReal) (x3 : (⟨2, ![1024, 1024]⟩ : Shape).Idx → EReal)
    (x4 : (⟨2, ![1, 1024]⟩ : Shape).Idx → EReal) (x5 : (⟨2, ![1024, 1024]⟩ : Shape).Idx → EReal)
    (x6 : (⟨2, ![1, 1024]⟩ : Shape).Idx → EReal) (x7 : (⟨2, ![1024, 64]⟩ : Shape).Idx → EReal)
    (x8 : (⟨2, ![1, 64]⟩ : Shape).Idx → EReal) (x9 : (⟨3, ![1, 96, 1024]⟩ : Shape).Idx → EReal)
    (x10 x11 : (⟨3, ![1, 1024, 1024]⟩ : Shape).Idx → EReal) (x12 : (⟨3, ![1, 1024, 64]⟩ : Shape).Idx → EReal)
    (h2 : ∀ (n : Fin 4096) (q : Fin 96), arg2.view.read (Elt Ideal) X_arg2 (ix2 n q) = x0 (ix2 n q))
    (h17 : ∀ (q : Fin 96) (j : Fin 1024), arg17.view.read (Elt Ideal) X_arg17 (ix2 q j) = x1 (ix2 q j) * x9 (ix3 (0 : Fin 1) q j))
    (h4 : ∀ j : Fin 1024, arg4.view.read (Elt Ideal) X_arg4 (ix2 (0 : Fin 1) j) = x2 (ix2 (0 : Fin 1) j))
    (h18 : ∀ q j : Fin 1024, arg18.view.read (Elt Ideal) X_arg18 (ix2 q j) = x3 (ix2 q j) * x10 (ix3 (0 : Fin 1) q j))
    (h6 : ∀ j : Fin 1024, arg6.view.read (Elt Ideal) X_arg6 (ix2 (0 : Fin 1) j) = x4 (ix2 (0 : Fin 1) j))
    (h19 : ∀ q j : Fin 1024, arg19.view.read (Elt Ideal) X_arg19 (ix2 q j) = x5 (ix2 q j) * x11 (ix3 (0 : Fin 1) q j))
    (h8 : ∀ j : Fin 1024, arg8.view.read (Elt Ideal) X_arg8 (ix2 (0 : Fin 1) j) = x6 (ix2 (0 : Fin 1) j))
    (h20 : ∀ (q : Fin 1024) (p : Fin 64), arg20.view.read (Elt Ideal) X_arg20 (ix2 q p) = x7 (ix2 q p) * x12 (ix3 (0 : Fin 1) q p))
    (h10 : ∀ p : Fin 64, arg10.view.read (Elt Ideal) X_arg10 (ix2 (0 : Fin 1) p) = x8 (ix2 (0 : Fin 1) p))
    (n : Fin 4096) (p : Fin 64) :
    v.read (Elt Ideal)
        (v.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg4 X_arg6 X_arg8 X_arg10 X_arg17 X_arg18 X_arg19 X_arg20 G k0_t1_loop.trips)) (ix2 n p)
      = arg16.view.read (Elt Ideal) G (ix2 n p)
        + Cert.Ensemble.blockOut x0 x1 x2 x3 x4 x5 x6 x7 x8 x9 x10 x11 x12 n p := by
  have hk : n.val / 512 < k0_t1_loop.trips := by rw [trips_eq]; have := n.isLt; omega
  have hr : n.val % 512 < 512 := Nat.mod_lt _ (by norm_num)
  have eoff : ∀ i : Fin k0_t1_loop.trips, k0_off2 i (0 : Fin 2) = 512 * i.val ∧ k0_off2 i (1 : Fin 2) = 0 := fun i => by
    rw [k0_off2_eq i]; exact ⟨rfl, rfl⟩
  have eoff1 : ∀ i : Fin k0_t1_loop.trips, k0_off1 i (0 : Fin 2) = 512 * i.val ∧ k0_off1 i (1 : Fin 2) = 0 := fun i => by
    rw [k0_off1_eq i]; exact ⟨rfl, rfl⟩
  rw [trips_eq_tiles 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg4 X_arg6 X_arg8 X_arg10 X_arg17 X_arg18 X_arg19 X_arg20 G _ (le_refl _)]
  refine (View.read_tilePieces v f S512x64.size k0_off2 k0_off2_inb _ _ (le_refl _) (ix2 n p)
    ⟨n.val / 512, hk⟩ hk (ix2 (⟨n.val % 512, hr⟩ : Fin 512) p)
    (Fin.forall_fin_two.mpr ⟨by
        show n.val = k0_off2 ⟨n.val / 512, hk⟩ (0 : Fin 2) + n.val % 512
        rw [(eoff _).1]; exact (Nat.div_add_mod n.val 512).symm, by
        show p.val = k0_off2 ⟨n.val / 512, hk⟩ (1 : Fin 2) + p.val
        rw [(eoff _).2, Nat.zero_add]⟩)
    (0 : Fin 2) (fun i' hne => by
      have hne' : i'.val ≠ n.val / 512 := fun h => hne (Fin.ext h)
      show n.val < k0_off2 i' (0 : Fin 2) ∨ k0_off2 i' (0 : Fin 2) + 512 ≤ n.val
      rw [(eoff i').1]
      omega)).trans ?_
  -- the trip's payload at (n mod 512, p)
  show chunkPayload arg2 arg4 arg6 arg8 arg10 arg16 arg17 arg18 arg19 arg20 X_arg2 X_arg4 X_arg6 X_arg8 X_arg10 X_arg17 X_arg18 X_arg19 X_arg20 ⟨n.val / 512, hk⟩ G (ix2 (⟨n.val % 512, hr⟩ : Fin 512) p) = _
  unfold chunkPayload
  rw [pay2_at]
  -- whole-shape loads read the contents as they are
  rw [Cert.WholeStores.readAt_whole arg17.view X_arg17 Cert.WholeStores.zero2,
    Cert.WholeStores.readAt_whole arg4.view X_arg4 Cert.WholeStores.zero2,
    Cert.WholeStores.readAt_whole arg18.view X_arg18 Cert.WholeStores.zero2,
    Cert.WholeStores.readAt_whole arg6.view X_arg6 Cert.WholeStores.zero2,
    Cert.WholeStores.readAt_whole arg19.view X_arg19 Cert.WholeStores.zero2,
    Cert.WholeStores.readAt_whole arg8.view X_arg8 Cert.WholeStores.zero2,
    Cert.WholeStores.readAt_whole arg20.view X_arg20 Cert.WholeStores.zero2,
    Cert.WholeStores.readAt_whole arg10.view X_arg10 Cert.WholeStores.zero2]
  -- the chunk's rows of the accumulator and of the batch are rows 512·⌊n/512⌋ + (n mod 512) = n
  have hacc : View.readAt (Elt Ideal) arg16.view
        (Rect.unit (s := S4096x64) (k0_off2 ⟨n.val / 512, hk⟩) S512x64.size (k0_off2_inb ⟨n.val / 512, hk⟩)).toLoadRect G
        (ix2 (⟨n.val % 512, hr⟩ : Fin 512) p) = arg16.view.read (Elt Ideal) G (ix2 n p) := by
    show arg16.view.read (Elt Ideal) G _ = _
    refine congrArg (arg16.view.read (Elt Ideal) G) (funext fun a => Fin.ext ?_)
    match a with
    | ⟨0, _⟩ =>
      show k0_off2 ⟨n.val / 512, hk⟩ (0 : Fin 2) + 1 * (n.val % 512) = n.val
      rw [(eoff _).1]
      show 512 * (n.val / 512) + 1 * (n.val % 512) = n.val
      have := Nat.div_add_mod n.val 512; omega
    | ⟨1, _⟩ =>
      show k0_off2 ⟨n.val / 512, hk⟩ (1 : Fin 2) + 1 * p.val = p.val
      rw [(eoff _).2]; omega
  have hbatch : ∀ q : Fin 96, View.readAt (Elt Ideal) arg2.view
        (Rect.unit (s := S4096x96) (k0_off1 ⟨n.val / 512, hk⟩) S512x96.size (k0_off1_inb ⟨n.val / 512, hk⟩)).toLoadRect X_arg2
        (ix2 (⟨n.val % 512, hr⟩ : Fin 512) q) = x0 (ix2 n q) := fun q => by
    rw [← h2 n q]
    show arg2.view.read (Elt Ideal) X_arg2 _ = _
    refine congrArg (arg2.view.read (Elt Ideal) X_arg2) (funext fun a => Fin.ext ?_)
    match a with
    | ⟨0, _⟩ =>
      show k0_off1 ⟨n.val / 512, hk⟩ (0 : Fin 2) + 1 * (n.val % 512) = n.val
      rw [(eoff1 _).1]
      show 512 * (n.val / 512) + 1 * (n.val % 512) = n.val
      have := Nat.div_add_mod n.val 512; omega
    | ⟨1, _⟩ =>
      show k0_off1 ⟨n.val / 512, hk⟩ (1 : Fin 2) + 1 * q.val = q.val
      rw [(eoff1 _).2]; omega
  rw [hacc]
  refine congrArg (fun t => arg16.view.read (Elt Ideal) G (ix2 n p) + t) ?_
  unfold Cert.Ensemble.blockOut
  rw [h10 p]
  refine congrArg (fun t => t + x8 (ix2 (0 : Fin 1) p)) (Finset.sum_congr rfl fun q _ => ?_)
  rw [h20 q p, pay4_at]
  refine congrArg (fun t => t * (x7 (ix2 q p) * x12 (ix3 (0 : Fin 1) q p))) ?_
  unfold Cert.Ensemble.bh3 Cert.Ensemble.bh2 Cert.Ensemble.bh1
  simp only [hbatch, h17, h4, h18, h6, h19, h8]

end Cert.KernelIdeal.PointAccumulator

end
-- ==== Proof.PointCases.lean ====
/-
  What one grid point leaves, in each of the body's three control cases, at an entry.

  At every grid point the body first writes the four masked weights (weight times the member's mask) into scratch,
  each by one store of the whole buffer, so a whole load of that scratch reads back `weight(q, j) · mask(0, q, j)`
  (`masked0_read` … `masked3_read`). Then the row-chunk loop adds the member's output to the accumulator.
  * First point of a core (the second coordinate is 0): the accumulator is zeroed first, so afterwards it holds
    `0 + member` (`acc_first`).
  * A middle point: it holds what the point before left plus the member (`acc_middle`).
  * Last point of a core (the second coordinate is 7): the same (`acc_last`), and the output block is written:
    the accumulator times the word for 1/16, as a [1, 4096, 64] slab (`out_last`).
-/
import proofs.«107710_j82995948027952_2_alg».proof.Proof.PointAccumulator
import proofs.«107710_j82995948027952_2_alg».proof.Proof.Gen.KernelIdeal.Frame

set_option maxRecDepth 16384

noncomputable section

open scoped BigOperators

namespace Cert.KernelIdeal.PointCases

open Cert.KernelIdeal Cert.KernelIdeal.Gen Cert.KernelIdeal.RowChunkLoop Cert.KernelIdeal.ChunkPayloads
  Cert.KernelIdeal.PointAccumulator
open Idealize.ShloMosaic Idealize.ShloMosaic.ValueIdx Idealize.ShloMosaic.TcCoe Idealize.ShloMosaic.Tactic
open Idealize.SL Idealize.SL.Sem

/-- The three zero offsets of a rank-3 shape. -/
theorem zero3 : (![0, 0, 0] : Fin 3 → Nat) = fun _ => 0 := by
  funext a
  match a with
  | ⟨0, _⟩ => rfl
  | ⟨1, _⟩ => rfl
  | ⟨2, _⟩ => rfl

/-- The layer-0 masked weight, stored whole into scratch, reads back as weight times mask. -/
theorem masked0_read (arg17 : Memref sig .tc .vmem S96x1024 .bf16) (arg3 : Memref sig .tc .vmem S96x1024 .bf16) (harg3 : arg3.IsWhole)
    (arg11 : Memref sig .tc .vmem S1x96x1024 .bf16) (harg11 : arg11.IsWhole)
    (x1 : Vec Ideal S96x1024 .bf16) (x9 : Vec Ideal S1x96x1024 .bf16) (q : Fin 96) (j : Fin 1024) :
    arg17.view.read (Elt Ideal) (arg17.view.writes (Elt Ideal) arg17.view.junk
        [⟨Rect.unit (s := S96x1024) ![0, 0] S96x1024.size inb_S96x1024_S96x1024_0_0,
          k0_pay6 (View.readAt (Elt Ideal) arg3.view (Rect.unit (s := S96x1024) ![0, 0] S96x1024.size inb_S96x1024_S96x1024_0_0).toLoadRect (harg3.unread x1))
            (View.readAt (Elt Ideal) arg11.view (Rect.unit (s := S1x96x1024) ![0, 0, 0] S1x96x1024.size inb_S1x96x1024_S1x96x1024_0_0_0).toLoadRect (harg11.unread x9))⟩]) (ix2 q j)
      = x1 (ix2 q j) * x9 (ix3 (0 : Fin 1) q j) := by
  rw [Cert.WholeStores.read_writes_whole arg17.view _ Cert.WholeStores.zero2, pay6_at,
    Cert.WholeStores.readAt_whole arg3.view _ Cert.WholeStores.zero2, Cert.WholeStores.readAt_whole arg11.view _ zero3,
    harg3.read_unread, harg11.read_unread]

/-- The layer-1 masked weight reads back as weight times mask. -/
theorem masked1_read (arg18 : Memref sig .tc .vmem S1024x1024 .bf16) (arg5 : Memref sig .tc .vmem S1024x1024 .bf16) (harg5 : arg5.IsWhole)
    (arg12 : Memref sig .tc .vmem S1x1024x1024 .bf16) (harg12 : arg12.IsWhole)
    (x3 : Vec Ideal S1024x1024 .bf16) (x10 : Vec Ideal S1x1024x1024 .bf16) (q j : Fin 1024) :
    arg18.view.read (Elt Ideal) (arg18.view.writes (Elt Ideal) arg18.view.junk
        [⟨Rect.unit (s := S1024x1024) ![0, 0] S1024x1024.size inb_S1024x1024_S1024x1024_0_0,
          k0_pay7 (View.readAt (Elt Ideal) arg5.view (Rect.unit (s := S1024x1024) ![0, 0] S1024x1024.size inb_S1024x1024_S1024x1024_0_0).toLoadRect (harg5.unread x3))
            (View.readAt (Elt Ideal) arg12.view (Rect.unit (s := S1x1024x1024) ![0, 0, 0] S1x1024x1024.size inb_S1x1024x1024_S1x1024x1024_0_0_0).toLoadRect (harg12.unread x10))⟩]) (ix2 q j)
      = x3 (ix2 q j) * x10 (ix3 (0 : Fin 1) q j) := by
  rw [Cert.WholeStores.read_writes_whole arg18.view _ Cert.WholeStores.zero2, pay7_at,
    Cert.WholeStores.readAt_whole arg5.view _ Cert.WholeStores.zero2, Cert.WholeStores.readAt_whole arg12.view _ zero3,
    harg5.read_unread, harg12.read_unread]

/-- The layer-2 masked weight reads back as weight times mask. -/
theorem masked2_read (arg19 : Memref sig .tc .vmem S1024x1024 .bf16) (arg7 : Memref sig .tc .vmem S1024x1024 .bf16) (harg7 : arg7.IsWhole)
    (arg13 : Memref sig .tc .vmem S1x1024x1024 .bf16) (harg13 : arg13.IsWhole)
    (x5 : Vec Ideal S1024x1024 .bf16) (x11 : Vec Ideal S1x1024x1024 .bf16) (q j : Fin 1024) :
    arg19.view.read (Elt Ideal) (arg19.view.writes (Elt Ideal) arg19.view.junk
        [⟨Rect.unit (s := S1024x1024) ![0, 0] S1024x1024.size inb_S1024x1024_S1024x1024_0_0,
          k0_pay8 (View.readAt (Elt Ideal) arg7.view (Rect.unit (s := S1024x1024) ![0, 0] S1024x1024.size inb_S1024x1024_S1024x1024_0_0).toLoadRect (harg7.unread x5))
            (View.readAt (Elt Ideal) arg13.view (Rect.unit (s := S1x1024x1024) ![0, 0, 0] S1x1024x1024.size inb_S1x1024x1024_S1x1024x1024_0_0_0).toLoadRect (harg13.unread x11))⟩]) (ix2 q j)
      = x5 (ix2 q j) * x11 (ix3 (0 : Fin 1) q j) := by
  rw [Cert.WholeStores.read_writes_whole arg19.view _ Cert.WholeStores.zero2, pay8_at,
    Cert.WholeStores.readAt_whole arg7.view _ Cert.WholeStores.zero2, Cert.WholeStores.readAt_whole arg13.view _ zero3,
    harg7.read_unread, harg13.read_unread]

/-- The layer-3 masked weight reads back as weight times mask. -/
theorem masked3_read (arg20 : Memref sig .tc .vmem S1024x64 .bf16) (arg9 : Memref sig .tc .vmem S1024x64 .bf16) (harg9 : arg9.IsWhole)
    (arg14 : Memref sig .tc .vmem S1x1024x64 .bf16) (harg14 : arg14.IsWhole)
    (x7 : Vec Ideal S1024x64 .bf16) (x12 : Vec Ideal S1x1024x64 .bf16) (q : Fin 1024) (p : Fin 64) :
    arg20.view.read (Elt Ideal) (arg20.view.writes (Elt Ideal) arg20.view.junk
        [⟨Rect.unit (s := S1024x64) ![0, 0] S1024x64.size inb_S1024x64_S1024x64_0_0,
          k0_pay1 (k0_pay9 (View.readAt (Elt Ideal) arg9.view (Rect.unit (s := S1024x64) ![0, 0] S1024x64.size inb_S1024x64_S1024x64_0_0).toLoadRect (harg9.unread x7)))
            (View.readAt (Elt Ideal) arg14.view (Rect.unit (s := S1x1024x64) ![0, 0, 0] S1x1024x64.size inb_S1x1024x64_S1x1024x64_0_0_0).toLoadRect (harg14.unread x12))⟩]) (ix2 q p)
      = x7 (ix2 q p) * x12 (ix3 (0 : Fin 1) q p) := by
  rw [Cert.WholeStores.read_writes_whole arg20.view _ Cert.WholeStores.zero2, pay1_at, pay9_at,
    Cert.WholeStores.readAt_whole arg9.view _ Cert.WholeStores.zero2, Cert.WholeStores.readAt_whole arg14.view _ zero3,
    harg9.read_unread, harg14.read_unread]

/-- A middle point: the accumulator it found, plus the member. -/
theorem acc_middle (c : Dev nD) (i : grid0.Coords) (arg2 : Memref sig .tc .vmem S4096x96 .bf16) (harg2 : arg2.IsWhole) (arg3 : Memref sig .tc .vmem S96x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x64 .bf16) (harg9 : arg9.IsWhole) (arg10 : Memref sig .tc .vmem S1x64 .f32) (harg10 : arg10.IsWhole) (arg11 : Memref sig .tc .vmem S1x96x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x64 .bf16) (harg14 : arg14.IsWhole) (arg15 : Memref sig .tc .vmem S1x4096x64 .f32) (harg15 : arg15.IsWhole) (arg16 : Memref sig .tc .vmem S4096x64 .f32) (harg16 : arg16.IsWhole) (arg17 : Memref sig .tc .vmem S96x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1024x64 .bf16) (harg20 : arg20.IsWhole) (hc0 : ¬cond0_0 i) (hc1 : ¬cond0_1 i) (x0 : Vec Ideal S4096x96 .bf16) (x1 : Vec Ideal S96x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x64 .bf16) (x8 : Vec Ideal S1x64 .f32) (x9 : Vec Ideal S1x96x1024 .bf16) (x10 : Vec Ideal S1x1024x1024 .bf16) (x11 : Vec Ideal S1x1024x1024 .bf16) (x12 : Vec Ideal S1x1024x64 .bf16) (xs0 : Vec Ideal S4096x64 .f32) (n : Fin 4096) (p : Fin 64) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xs0 (ix2 n p)
      = xs0 (ix2 n p) + Cert.Ensemble.blockOut x0 x1 x2 x3 x4 x5 x6 x7 x8 x9 x10 x11 x12 n p := by
  unfold sout0_B_0
  unfold kernelRun0_B
  dsimp only
  sl_unfold_run_names
  refine (loop_entry _ _ _ _ _ _ _ _ _ _ _ _ _ _ _ _ _ _ _ _ _ _ _ _ _ _ _ _ _ _ _ _ _ _ _ _ _ _ _ _ _ _ _ _ _ _ _ _ _ _ _ (harg16.unread xs0) VS0_0 VS0_0.junk x0 x1 x2 x3 x4 x5 x6 x7 x8 x9 x10 x11 x12
    (h2 := fun n q => congrFun (harg2.read_unread x0) _)
    (h17 := fun q j => masked0_read arg17 arg3 harg3 arg11 harg11 x1 x9 q j)
    (h4 := fun j => congrFun (harg4.read_unread x2) _)
    (h18 := fun q j => masked1_read arg18 arg5 harg5 arg12 harg12 x3 x10 q j)
    (h6 := fun j => congrFun (harg6.read_unread x4) _)
    (h19 := fun q j => masked2_read arg19 arg7 harg7 arg13 harg13 x5 x11 q j)
    (h8 := fun j => congrFun (harg8.read_unread x6) _)
    (h20 := fun q p => masked3_read arg20 arg9 harg9 arg14 harg14 x7 x12 q p)
    (h10 := fun p => congrFun (harg10.read_unread x8) _)
    n p).trans ?_
  rw [harg16.read_unread]

/-- The last point of a core: the accumulator it found, plus the member. -/
theorem acc_last (c : Dev nD) (i : grid0.Coords) (arg2 : Memref sig .tc .vmem S4096x96 .bf16) (harg2 : arg2.IsWhole) (arg3 : Memref sig .tc .vmem S96x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x64 .bf16) (harg9 : arg9.IsWhole) (arg10 : Memref sig .tc .vmem S1x64 .f32) (harg10 : arg10.IsWhole) (arg11 : Memref sig .tc .vmem S1x96x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x64 .bf16) (harg14 : arg14.IsWhole) (arg15 : Memref sig .tc .vmem S1x4096x64 .f32) (harg15 : arg15.IsWhole) (arg16 : Memref sig .tc .vmem S4096x64 .f32) (harg16 : arg16.IsWhole) (arg17 : Memref sig .tc .vmem S96x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1024x64 .bf16) (harg20 : arg20.IsWhole) (hc0 : ¬cond0_0 i) (hc1 : cond0_1 i) (x0 : Vec Ideal S4096x96 .bf16) (x1 : Vec Ideal S96x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x64 .bf16) (x8 : Vec Ideal S1x64 .f32) (x9 : Vec Ideal S1x96x1024 .bf16) (x10 : Vec Ideal S1x1024x1024 .bf16) (x11 : Vec Ideal S1x1024x1024 .bf16) (x12 : Vec Ideal S1x1024x64 .bf16) (xs0 : Vec Ideal S4096x64 .f32) (n : Fin 4096) (p : Fin 64) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xs0 (ix2 n p)
      = xs0 (ix2 n p) + Cert.Ensemble.blockOut x0 x1 x2 x3 x4 x5 x6 x7 x8 x9 x10 x11 x12 n p := by
  unfold sout0_C_0
  unfold kernelRun0_C
  dsimp only
  sl_unfold_run_names
  refine (loop_entry _ _ _ _ _ _ _ _ _ _ _ _ _ _ _ _ _ _ _ _ _ _ _ _ _ _ _ _ _ _ _ _ _ _ _ _ _ _ _ _ _ _ _ _ _ _ _ _ _ _ _ (harg16.unread xs0) VS0_0 VS0_0.junk x0 x1 x2 x3 x4 x5 x6 x7 x8 x9 x10 x11 x12
    (h2 := fun n q => congrFun (harg2.read_unread x0) _)
    (h17 := fun q j => masked0_read arg17 arg3 harg3 arg11 harg11 x1 x9 q j)
    (h4 := fun j => congrFun (harg4.read_unread x2) _)
    (h18 := fun q j => masked1_read arg18 arg5 harg5 arg12 harg12 x3 x10 q j)
    (h6 := fun j => congrFun (harg6.read_unread x4) _)
    (h19 := fun q j => masked2_read arg19 arg7 harg7 arg13 harg13 x5 x11 q j)
    (h8 := fun j => congrFun (harg8.read_unread x6) _)
    (h20 := fun q p => masked3_read arg20 arg9 harg9 arg14 harg14 x7 x12 q p)
    (h10 := fun p => congrFun (harg10.read_unread x8) _)
    n p).trans ?_
  rw [harg16.read_unread]

/-- The last point of a core writes its output block: the accumulator (what it found plus the member) times 1/16. -/
theorem out_last (c : Dev nD) (i : grid0.Coords) (arg2 : Memref sig .tc .vmem S4096x96 .bf16) (harg2 : arg2.IsWhole) (arg3 : Memref sig .tc .vmem S96x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x64 .bf16) (harg9 : arg9.IsWhole) (arg10 : Memref sig .tc .vmem S1x64 .f32) (harg10 : arg10.IsWhole) (arg11 : Memref sig .tc .vmem S1x96x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x64 .bf16) (harg14 : arg14.IsWhole) (arg15 : Memref sig .tc .vmem S1x4096x64 .f32) (harg15 : arg15.IsWhole) (arg16 : Memref sig .tc .vmem S4096x64 .f32) (harg16 : arg16.IsWhole) (arg17 : Memref sig .tc .vmem S96x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1024x64 .bf16) (harg20 : arg20.IsWhole) (hc0 : ¬cond0_0 i) (hc1 : cond0_1 i) (x0 : Vec Ideal S4096x96 .bf16) (x1 : Vec Ideal S96x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x64 .bf16) (x8 : Vec Ideal S1x64 .f32) (x9 : Vec Ideal S1x96x1024 .bf16) (x10 : Vec Ideal S1x1024x1024 .bf16) (x11 : Vec Ideal S1x1024x1024 .bf16) (x12 : Vec Ideal S1x1024x64 .bf16) (xs0 : Vec Ideal S4096x64 .f32) (n : Fin 4096) (p : Fin 64) :
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 xs0 (ix3 (0 : Fin 1) n p)
      = (xs0 (ix2 n p) + Cert.Ensemble.blockOut x0 x1 x2 x3 x4 x5 x6 x7 x8 x9 x10 x11 x12 n p) * ((1 / 16 : ℝ) : EReal) := by
  unfold out0_C_13
  unfold kernelRun0_C
  dsimp only
  sl_unfold_run_names
  rw [Cert.WholeStores.read_writes_whole VO0_13 _ zero3, pay3_at, Cert.WholeStores.readAt_whole arg16.view _ Cert.WholeStores.zero2]
  refine congrArg (fun t => t * ((1 / 16 : ℝ) : EReal)) ?_
  refine (loop_entry _ _ _ _ _ _ _ _ _ _ _ _ _ _ _ _ _ _ _ _ _ _ _ _ _ _ _ _ _ _ _ _ _ _ _ _ _ _ _ _ _ _ _ _ _ _ _ _ _ _ _ (harg16.unread xs0) arg16.view (harg16.unread xs0) x0 x1 x2 x3 x4 x5 x6 x7 x8 x9 x10 x11 x12
    (h2 := fun n q => congrFun (harg2.read_unread x0) _)
    (h17 := fun q j => masked0_read arg17 arg3 harg3 arg11 harg11 x1 x9 q j)
    (h4 := fun j => congrFun (harg4.read_unread x2) _)
    (h18 := fun q j => masked1_read arg18 arg5 harg5 arg12 harg12 x3 x10 q j)
    (h6 := fun j => congrFun (harg6.read_unread x4) _)
    (h19 := fun q j => masked2_read arg19 arg7 harg7 arg13 harg13 x5 x11 q j)
    (h8 := fun j => congrFun (harg8.read_unread x6) _)
    (h20 := fun q p => masked3_read arg20 arg9 harg9 arg14 harg14 x7 x12 q p)
    (h10 := fun p => congrFun (harg10.read_unread x8) _)
    n p).trans ?_
  rw [harg16.read_unread]

/-- The first point of a core: the accumulator is zeroed, then the member added. -/
theorem acc_first (c : Dev nD) (i : grid0.Coords) (arg2 : Memref sig .tc .vmem S4096x96 .bf16) (harg2 : arg2.IsWhole) (arg3 : Memref sig .tc .vmem S96x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x64 .bf16) (harg9 : arg9.IsWhole) (arg10 : Memref sig .tc .vmem S1x64 .f32) (harg10 : arg10.IsWhole) (arg11 : Memref sig .tc .vmem S1x96x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x64 .bf16) (harg14 : arg14.IsWhole) (arg15 : Memref sig .tc .vmem S1x4096x64 .f32) (harg15 : arg15.IsWhole) (arg16 : Memref sig .tc .vmem S4096x64 .f32) (harg16 : arg16.IsWhole) (arg17 : Memref sig .tc .vmem S96x1024 .bf16) (harg17 : arg17.IsWhole) (arg18 : Memref sig .tc .vmem S1024x1024 .bf16) (harg18 : arg18.IsWhole) (arg19 : Memref sig .tc .vmem S1024x1024 .bf16) (harg19 : arg19.IsWhole) (arg20 : Memref sig .tc .vmem S1024x64 .bf16) (harg20 : arg20.IsWhole) (hc0 : cond0_0 i) (hc1 : ¬cond0_1 i) (x0 : Vec Ideal S4096x96 .bf16) (x1 : Vec Ideal S96x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x64 .bf16) (x8 : Vec Ideal S1x64 .f32) (x9 : Vec Ideal S1x96x1024 .bf16) (x10 : Vec Ideal S1x1024x1024 .bf16) (x11 : Vec Ideal S1x1024x1024 .bf16) (x12 : Vec Ideal S1x1024x64 .bf16) (n : Fin 4096) (p : Fin 64) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 (ix2 n p)
      = 0 + Cert.Ensemble.blockOut x0 x1 x2 x3 x4 x5 x6 x7 x8 x9 x10 x11 x12 n p := by
  unfold sout0_A_0
  unfold kernelRun0_A
  dsimp only
  sl_unfold_run_names
  rw [View.writes_append]
  refine (loop_entry _ _ _ _ _ _ _ _ _ _ _ _ _ _ _ _ _ _ _ _ _ _ _ _ _ _ _ _ _ _ _ _ _ _ _ _ _ _ _ _ _ _ _ _ _ _ _ _ _ _ _ _ VS0_0 _ x0 x1 x2 x3 x4 x5 x6 x7 x8 x9 x10 x11 x12
    (h2 := fun n q => congrFun (harg2.read_unread x0) _)
    (h17 := fun q j => masked0_read arg17 arg3 harg3 arg11 harg11 x1 x9 q j)
    (h4 := fun j => congrFun (harg4.read_unread x2) _)
    (h18 := fun q j => masked1_read arg18 arg5 harg5 arg12 harg12 x3 x10 q j)
    (h6 := fun j => congrFun (harg6.read_unread x4) _)
    (h19 := fun q j => masked2_read arg19 arg7 harg7 arg13 harg13 x5 x11 q j)
    (h8 := fun j => congrFun (harg8.read_unread x6) _)
    (h20 := fun q p => masked3_read arg20 arg9 harg9 arg14 harg14 x7 x12 q p)
    (h10 := fun p => congrFun (harg10.read_unread x8) _)
    n p).trans ?_
  rw [Cert.WholeStores.read_writes_whole arg16.view _ Cert.WholeStores.zero2, pay5_at]

end Cert.KernelIdeal.PointCases

end
-- ==== Proof.InputBlocks.lean ====
/- The input blocks at an entry.

   Each of the thirteen input windows' blocks at a grid point, read at an index over the extended reals, is an
   entry of an argument array of the program. Three facts compose: (1) the array a window stages is what one or
   two host operations made of an argument before the region — a cast f32 → bf16, which over the extended reals
   is the identity, after a transpose for the four weight matrices, or a reshape [n] → [1, n] for the four bias
   rows; (2) a block's element sits in its array at block index × block size + its own coordinate on every axis,
   and the index maps, decided over the sixteen grid points, are (0, 0) for windows 0–8 and (t, 0, 0) for
   windows 9–12 at point t; (3) a transpose read at (q, j) is its operand at (j, q), and a reshape [n] → [1, n]
   read at (0, j) is its operand at j. Last, for the output window 13 (one [1, 4096, 64] slab of the
   [2, 4096, 64] result per core half, block index (t / 8, 0, 0), written back where t ≡ 7 mod 8): where a block's
   element sits, and that the blocks written back cover the array. -/
import proofs.«107710_j82995948027952_2_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

namespace Cert.KernelIdeal.InputBlocks

open Cert.KernelIdeal Cert.KernelIdeal.Gen Idealize.ShloMosaic Idealize.ShloMosaic.ValueIdx Idealize.SL.Sem
open Idealize.ShloMosaic.TcCoe

variable (m : (ℓ : Loc nD τ sig) → Buf (Elt Ideal) ℓ) (c : Dev nD) (t : Fin cfg0.N)

/-! ## The staged arrays as the region finds them

Each array a window stages is the result of one or two host operations on an argument of the program: a cast
from f32 to bf16 (the identity on the extended reals), preceded for the weight matrices by a transpose, or for
the bias rows a reshape from `[n]` to `[1, n]`. -/

theorem ht16 (t : Fin cfg0.N) : t.val < 16 := by
  have h : cfg0.N = 16 := N_0
  have := t.isLt
  omega

theorem V_v12 : (V m c main_v12 : S4096x96.Idx → EReal)
    = truncf (F := Ideal) (s := S4096x96) (φ := .f32) .bf16 (m ((c : Thread nD τ).loc main_arg0)) bitsLt_bf16_f32 := by
  show StableHlo.after hostOps0 (fun b => m (c, b)) (Proc.devRef .tc main_v12) = _
  after_results

theorem V_v13 : (V m c main_v13 : S16x96x1024.Idx → EReal)
    = truncf (F := Ideal) (s := S16x96x1024) (φ := .f32) .bf16 (m ((c : Thread nD τ).loc main_arg9)) bitsLt_bf16_f32 := by
  show StableHlo.after hostOps0 (fun b => m (c, b)) (Proc.devRef .tc main_v13) = _
  after_results

theorem V_v14 : (V m c main_v14 : S16x1024x1024.Idx → EReal)
    = truncf (F := Ideal) (s := S16x1024x1024) (φ := .f32) .bf16 (m ((c : Thread nD τ).loc main_arg10)) bitsLt_bf16_f32 := by
  show StableHlo.after hostOps0 (fun b => m (c, b)) (Proc.devRef .tc main_v14) = _
  after_results

theorem V_v15 : (V m c main_v15 : S16x1024x1024.Idx → EReal)
    = truncf (F := Ideal) (s := S16x1024x1024) (φ := .f32) .bf16 (m ((c : Thread nD τ).loc main_arg11)) bitsLt_bf16_f32 := by
  show StableHlo.after hostOps0 (fun b => m (c, b)) (Proc.devRef .tc main_v15) = _
  after_results

theorem V_v16 : (V m c main_v16 : S16x1024x64.Idx → EReal)
    = truncf (F := Ideal) (s := S16x1024x64) (φ := .f32) .bf16 (m ((c : Thread nD τ).loc main_arg12)) bitsLt_bf16_f32 := by
  show StableHlo.after hostOps0 (fun b => m (c, b)) (Proc.devRef .tc main_v16) = _
  after_results

theorem V_v1 : (V m c main_v1 : S96x1024.Idx → EReal)
    = truncf (F := Ideal) (s := S96x1024) (φ := .f32) .bf16
        (transpose (α := EReal) S96x1024 [1, 0] (m ((c : Thread nD τ).loc main_arg1) : S1024x96.Idx → EReal) transposes_S1024x96_S96x1024_1_0) bitsLt_bf16_f32 := by
  show StableHlo.after hostOps0 (fun b => m (c, b)) (Proc.devRef .tc main_v1) = _
  after_results

theorem V_v3 : (V m c main_v3 : S1024x1024.Idx → EReal)
    = truncf (F := Ideal) (s := S1024x1024) (φ := .f32) .bf16
        (transpose (α := EReal) S1024x1024 [1, 0] (m ((c : Thread nD τ).loc main_arg3) : S1024x1024.Idx → EReal) transposes_S1024x1024_S1024x1024_1_0) bitsLt_bf16_f32 := by
  show StableHlo.after hostOps0 (fun b => m (c, b)) (Proc.devRef .tc main_v3) = _
  after_results

theorem V_v5 : (V m c main_v5 : S1024x1024.Idx → EReal)
    = truncf (F := Ideal) (s := S1024x1024) (φ := .f32) .bf16
        (transpose (α := EReal) S1024x1024 [1, 0] (m ((c : Thread nD τ).loc main_arg5) : S1024x1024.Idx → EReal) transposes_S1024x1024_S1024x1024_1_0) bitsLt_bf16_f32 := by
  show StableHlo.after hostOps0 (fun b => m (c, b)) (Proc.devRef .tc main_v5) = _
  after_results

theorem V_v7 : (V m c main_v7 : S1024x64.Idx → EReal)
    = truncf (F := Ideal) (s := S1024x64) (φ := .f32) .bf16
        (transpose (α := EReal) S1024x64 [1, 0] (m ((c : Thread nD τ).loc main_arg7) : S64x1024.Idx → EReal) transposes_S64x1024_S1024x64_1_0) bitsLt_bf16_f32 := by
  show StableHlo.after hostOps0 (fun b => m (c, b)) (Proc.devRef .tc main_v7) = _
  after_results

theorem V_v8 : (V m c main_v8 : S1x1024.Idx → EReal)
    = shapeCast (α := EReal) S1x1024 (m ((c : Thread nD τ).loc main_arg2) : S1024.Idx → EReal) shapeCasts_S1024_S1x1024 := by
  show StableHlo.after hostOps0 (fun b => m (c, b)) (Proc.devRef .tc main_v8) = _
  after_results
  rfl

theorem V_v9 : (V m c main_v9 : S1x1024.Idx → EReal)
    = shapeCast (α := EReal) S1x1024 (m ((c : Thread nD τ).loc main_arg4) : S1024.Idx → EReal) shapeCasts_S1024_S1x1024 := by
  show StableHlo.after hostOps0 (fun b => m (c, b)) (Proc.devRef .tc main_v9) = _
  after_results
  rfl

theorem V_v10 : (V m c main_v10 : S1x1024.Idx → EReal)
    = shapeCast (α := EReal) S1x1024 (m ((c : Thread nD τ).loc main_arg6) : S1024.Idx → EReal) shapeCasts_S1024_S1x1024 := by
  show StableHlo.after hostOps0 (fun b => m (c, b)) (Proc.devRef .tc main_v10) = _
  after_results
  rfl

theorem V_v11 : (V m c main_v11 : S1x64.Idx → EReal)
    = shapeCast (α := EReal) S1x64 (m ((c : Thread nD τ).loc main_arg8) : S64.Idx → EReal) shapeCasts_S64_S1x64 := by
  show StableHlo.after hostOps0 (fun b => m (c, b)) (Proc.devRef .tc main_v11) = _
  after_results
  rfl

/-! ## Where a block's element sits in its array

A window's block at a grid point is the rectangle of its array at block index × block size on every axis. The
index maps are decided once over the 16 grid points: windows 0–8 stay at block (0, 0) — the block is the whole
array —, windows 9–12 move along the leading axis with the point, one matrix of the stack per point. -/

theorem idx0 : ∀ t : Fin cfg0.N, win0_0.index t (0 : Fin 2) = 0 ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

theorem emb0 (n : Fin 4096) (q : Fin 96) :
    ((cfg0.win 0).blk t).view.emb (ix2 n q) = (ix2 n q : S4096x96.Idx) := by
  obtain ⟨e0, e1⟩ := idx0 t
  funext a
  apply Fin.ext
  match a with
  | ⟨0, _⟩ => show win0_0.index t (0 : Fin 2) * 4096 + 1 * n.val = n.val; omega
  | ⟨1, _⟩ => show win0_0.index t (1 : Fin 2) * 96 + 1 * q.val = q.val; omega

theorem emb1 (q : Fin 96) (j : Fin 1024) :
    ((cfg0.win 1).blk t).view.emb (ix2 q j) = (ix2 q j : S96x1024.Idx) := by
  obtain ⟨e0, e1⟩ := idx1 t
  funext a
  apply Fin.ext
  match a with
  | ⟨0, _⟩ => show win0_1.index t (0 : Fin 2) * 96 + 1 * q.val = q.val; omega
  | ⟨1, _⟩ => show win0_1.index t (1 : Fin 2) * 1024 + 1 * j.val = j.val; omega

theorem emb2 (j : Fin 1024) :
    ((cfg0.win 2).blk t).view.emb (ix2 (0 : Fin 1) j) = (ix2 (0 : Fin 1) j : S1x1024.Idx) := by
  obtain ⟨e0, e1⟩ := idx2 t
  funext a
  apply Fin.ext
  match a with
  | ⟨0, _⟩ => show win0_2.index t (0 : Fin 2) * 1 + 1 * 0 = 0; omega
  | ⟨1, _⟩ => show win0_2.index t (1 : Fin 2) * 1024 + 1 * j.val = j.val; omega

theorem emb3 (q : Fin 1024) (j : Fin 1024) :
    ((cfg0.win 3).blk t).view.emb (ix2 q j) = (ix2 q j : S1024x1024.Idx) := by
  obtain ⟨e0, e1⟩ := idx3 t
  funext a
  apply Fin.ext
  match a with
  | ⟨0, _⟩ => show win0_3.index t (0 : Fin 2) * 1024 + 1 * q.val = q.val; omega
  | ⟨1, _⟩ => show win0_3.index t (1 : Fin 2) * 1024 + 1 * j.val = j.val; omega

theorem emb4 (j : Fin 1024) :
    ((cfg0.win 4).blk t).view.emb (ix2 (0 : Fin 1) j) = (ix2 (0 : Fin 1) j : S1x1024.Idx) := by
  obtain ⟨e0, e1⟩ := idx4 t
  funext a
  apply Fin.ext
  match a with
  | ⟨0, _⟩ => show win0_4.index t (0 : Fin 2) * 1 + 1 * 0 = 0; omega
  | ⟨1, _⟩ => show win0_4.index t (1 : Fin 2) * 1024 + 1 * j.val = j.val; omega

theorem emb5 (q : Fin 1024) (j : Fin 1024) :
    ((cfg0.win 5).blk t).view.emb (ix2 q j) = (ix2 q j : S1024x1024.Idx) := by
  obtain ⟨e0, e1⟩ := idx5 t
  funext a
  apply Fin.ext
  match a with
  | ⟨0, _⟩ => show win0_5.index t (0 : Fin 2) * 1024 + 1 * q.val = q.val; omega
  | ⟨1, _⟩ => show win0_5.index t (1 : Fin 2) * 1024 + 1 * j.val = j.val; omega

theorem emb6 (j : Fin 1024) :
    ((cfg0.win 6).blk t).view.emb (ix2 (0 : Fin 1) j) = (ix2 (0 : Fin 1) j : S1x1024.Idx) := by
  obtain ⟨e0, e1⟩ := idx6 t
  funext a
  apply Fin.ext
  match a with
  | ⟨0, _⟩ => show win0_6.index t (0 : Fin 2) * 1 + 1 * 0 = 0; omega
  | ⟨1, _⟩ => show win0_6.index t (1 : Fin 2) * 1024 + 1 * j.val = j.val; omega

theorem emb7 (q : Fin 1024) (p : Fin 64) :
    ((cfg0.win 7).blk t).view.emb (ix2 q p) = (ix2 q p : S1024x64.Idx) := by
  obtain ⟨e0, e1⟩ := idx7 t
  funext a
  apply Fin.ext
  match a with
  | ⟨0, _⟩ => show win0_7.index t (0 : Fin 2) * 1024 + 1 * q.val = q.val; omega
  | ⟨1, _⟩ => show win0_7.index t (1 : Fin 2) * 64 + 1 * p.val = p.val; omega

theorem emb8 (p : Fin 64) :
    ((cfg0.win 8).blk t).view.emb (ix2 (0 : Fin 1) p) = (ix2 (0 : Fin 1) p : S1x64.Idx) := by
  obtain ⟨e0, e1⟩ := idx8 t
  funext a
  apply Fin.ext
  match a with
  | ⟨0, _⟩ => show win0_8.index t (0 : Fin 2) * 1 + 1 * 0 = 0; omega
  | ⟨1, _⟩ => show win0_8.index t (1 : Fin 2) * 64 + 1 * p.val = p.val; omega

theorem emb9 (q : Fin 96) (j : Fin 1024) :
    ((cfg0.win 9).blk t).view.emb (ix3 (0 : Fin 1) q j) = (ix3 (⟨t.val, ht16 t⟩ : Fin 16) q j : S16x96x1024.Idx) := by
  obtain ⟨e0, e1, e2⟩ := idx9 t
  funext a
  apply Fin.ext
  match a with
  | ⟨0, _⟩ => show win0_9.index t (0 : Fin 3) * 1 + 1 * 0 = t.val; omega
  | ⟨1, _⟩ => show win0_9.index t (1 : Fin 3) * 96 + 1 * q.val = q.val; omega
  | ⟨2, _⟩ => show win0_9.index t (2 : Fin 3) * 1024 + 1 * j.val = j.val; omega

theorem emb10 (q : Fin 1024) (j : Fin 1024) :
    ((cfg0.win 10).blk t).view.emb (ix3 (0 : Fin 1) q j) = (ix3 (⟨t.val, ht16 t⟩ : Fin 16) q j : S16x1024x1024.Idx) := by
  obtain ⟨e0, e1, e2⟩ := idx10 t
  funext a
  apply Fin.ext
  match a with
  | ⟨0, _⟩ => show win0_10.index t (0 : Fin 3) * 1 + 1 * 0 = t.val; omega
  | ⟨1, _⟩ => show win0_10.index t (1 : Fin 3) * 1024 + 1 * q.val = q.val; omega
  | ⟨2, _⟩ => show win0_10.index t (2 : Fin 3) * 1024 + 1 * j.val = j.val; omega

theorem emb11 (q : Fin 1024) (j : Fin 1024) :
    ((cfg0.win 11).blk t).view.emb (ix3 (0 : Fin 1) q j) = (ix3 (⟨t.val, ht16 t⟩ : Fin 16) q j : S16x1024x1024.Idx) := by
  obtain ⟨e0, e1, e2⟩ := idx11 t
  funext a
  apply Fin.ext
  match a with
  | ⟨0, _⟩ => show win0_11.index t (0 : Fin 3) * 1 + 1 * 0 = t.val; omega
  | ⟨1, _⟩ => show win0_11.index t (1 : Fin 3) * 1024 + 1 * q.val = q.val; omega
  | ⟨2, _⟩ => show win0_11.index t (2 : Fin 3) * 1024 + 1 * j.val = j.val; omega

theorem emb12 (q : Fin 1024) (p : Fin 64) :
    ((cfg0.win 12).blk t).view.emb (ix3 (0 : Fin 1) q p) = (ix3 (⟨t.val, ht16 t⟩ : Fin 16) q p : S16x1024x64.Idx) := by
  obtain ⟨e0, e1, e2⟩ := idx12 t
  funext a
  apply Fin.ext
  match a with
  | ⟨0, _⟩ => show win0_12.index t (0 : Fin 3) * 1 + 1 * 0 = t.val; omega
  | ⟨1, _⟩ => show win0_12.index t (1 : Fin 3) * 1024 + 1 * q.val = q.val; omega
  | ⟨2, _⟩ => show win0_12.index t (2 : Fin 3) * 64 + 1 * p.val = p.val; omega

/-! ## The blocks at an entry -/

theorem blk0_at (n : Fin 4096) (q : Fin 96) :
    iblk (F := Ideal) m c 0 t (ix2 n q) = (m ((c : Thread nD τ).loc main_arg0) : S4096x96.Idx → EReal) (ix2 n q) := by
  unfold iblk
  rw [View.read_apply]
  show V m c main_v12 (((cfg0.win 0).blk t).view.emb (ix2 n q)) = _
  rw [emb0 t n q, V_v12, truncf_apply]

theorem blk1_at (q : Fin 96) (j : Fin 1024) :
    iblk (F := Ideal) m c 1 t (ix2 q j) = (m ((c : Thread nD τ).loc main_arg1) : S1024x96.Idx → EReal) (ix2 j q) := by
  unfold iblk
  rw [View.read_apply]
  show V m c main_v1 (((cfg0.win 1).blk t).view.emb (ix2 q j)) = _
  rw [emb1 t q j, V_v1, truncf_apply, transpose_ix2_apply]

theorem blk2_at (j : Fin 1024) :
    iblk (F := Ideal) m c 2 t (ix2 (0 : Fin 1) j) = (m ((c : Thread nD τ).loc main_arg2) : S1024.Idx → EReal) (ix1 j) := by
  unfold iblk
  rw [View.read_apply]
  show V m c main_v8 (((cfg0.win 2).blk t).view.emb (ix2 (0 : Fin 1) j)) = _
  rw [emb2 t j, V_v8, shapeCast_a_1a_apply]

theorem blk3_at (q : Fin 1024) (j : Fin 1024) :
    iblk (F := Ideal) m c 3 t (ix2 q j) = (m ((c : Thread nD τ).loc main_arg3) : S1024x1024.Idx → EReal) (ix2 j q) := by
  unfold iblk
  rw [View.read_apply]
  show V m c main_v3 (((cfg0.win 3).blk t).view.emb (ix2 q j)) = _
  rw [emb3 t q j, V_v3, truncf_apply, transpose_ix2_apply]

theorem blk4_at (j : Fin 1024) :
    iblk (F := Ideal) m c 4 t (ix2 (0 : Fin 1) j) = (m ((c : Thread nD τ).loc main_arg4) : S1024.Idx → EReal) (ix1 j) := by
  unfold iblk
  rw [View.read_apply]
  show V m c main_v9 (((cfg0.win 4).blk t).view.emb (ix2 (0 : Fin 1) j)) = _
  rw [emb4 t j, V_v9, shapeCast_a_1a_apply]

theorem blk5_at (q : Fin 1024) (j : Fin 1024) :
    iblk (F := Ideal) m c 5 t (ix2 q j) = (m ((c : Thread nD τ).loc main_arg5) : S1024x1024.Idx → EReal) (ix2 j q) := by
  unfold iblk
  rw [View.read_apply]
  show V m c main_v5 (((cfg0.win 5).blk t).view.emb (ix2 q j)) = _
  rw [emb5 t q j, V_v5, truncf_apply, transpose_ix2_apply]

theorem blk6_at (j : Fin 1024) :
    iblk (F := Ideal) m c 6 t (ix2 (0 : Fin 1) j) = (m ((c : Thread nD τ).loc main_arg6) : S1024.Idx → EReal) (ix1 j) := by
  unfold iblk
  rw [View.read_apply]
  show V m c main_v10 (((cfg0.win 6).blk t).view.emb (ix2 (0 : Fin 1) j)) = _
  rw [emb6 t j, V_v10, shapeCast_a_1a_apply]

theorem blk7_at (q : Fin 1024) (p : Fin 64) :
    iblk (F := Ideal) m c 7 t (ix2 q p) = (m ((c : Thread nD τ).loc main_arg7) : S64x1024.Idx → EReal) (ix2 p q) := by
  unfold iblk
  rw [View.read_apply]
  show V m c main_v7 (((cfg0.win 7).blk t).view.emb (ix2 q p)) = _
  rw [emb7 t q p, V_v7, truncf_apply, transpose_ix2_apply]

theorem blk8_at (p : Fin 64) :
    iblk (F := Ideal) m c 8 t (ix2 (0 : Fin 1) p) = (m ((c : Thread nD τ).loc main_arg8) : S64.Idx → EReal) (ix1 p) := by
  unfold iblk
  rw [View.read_apply]
  show V m c main_v11 (((cfg0.win 8).blk t).view.emb (ix2 (0 : Fin 1) p)) = _
  rw [emb8 t p, V_v11, shapeCast_a_1a_apply]

theorem blk9_at (q : Fin 96) (j : Fin 1024) :
    iblk (F := Ideal) m c 9 t (ix3 (0 : Fin 1) q j) = (m ((c : Thread nD τ).loc main_arg9) : S16x96x1024.Idx → EReal) (ix3 (⟨t.val, ht16 t⟩ : Fin 16) q j) := by
  unfold iblk
  rw [View.read_apply]
  show V m c main_v13 (((cfg0.win 9).blk t).view.emb (ix3 (0 : Fin 1) q j)) = _
  rw [emb9 t q j, V_v13, truncf_apply]

theorem blk10_at (q : Fin 1024) (j : Fin 1024) :
    iblk (F := Ideal) m c 10 t (ix3 (0 : Fin 1) q j) = (m ((c : Thread nD τ).loc main_arg10) : S16x1024x1024.Idx → EReal) (ix3 (⟨t.val, ht16 t⟩ : Fin 16) q j) := by
  unfold iblk
  rw [View.read_apply]
  show V m c main_v14 (((cfg0.win 10).blk t).view.emb (ix3 (0 : Fin 1) q j)) = _
  rw [emb10 t q j, V_v14, truncf_apply]

theorem blk11_at (q : Fin 1024) (j : Fin 1024) :
    iblk (F := Ideal) m c 11 t (ix3 (0 : Fin 1) q j) = (m ((c : Thread nD τ).loc main_arg11) : S16x1024x1024.Idx → EReal) (ix3 (⟨t.val, ht16 t⟩ : Fin 16) q j) := by
  unfold iblk
  rw [View.read_apply]
  show V m c main_v15 (((cfg0.win 11).blk t).view.emb (ix3 (0 : Fin 1) q j)) = _
  rw [emb11 t q j, V_v15, truncf_apply]

theorem blk12_at (q : Fin 1024) (p : Fin 64) :
    iblk (F := Ideal) m c 12 t (ix3 (0 : Fin 1) q p) = (m ((c : Thread nD τ).loc main_arg12) : S16x1024x64.Idx → EReal) (ix3 (⟨t.val, ht16 t⟩ : Fin 16) q p) := by
  unfold iblk
  rw [View.read_apply]
  show V m c main_v16 (((cfg0.win 12).blk t).view.emb (ix3 (0 : Fin 1) q p)) = _
  rw [emb12 t q p, V_v16, truncf_apply]

/-! ## The output window

Window 13 writes the result stack `[2, 4096, 64]` one `[1, 4096, 64]` slab per core half: over the row-major grid
(2, 8) its block index at point `t` is (t / 8, 0, 0), and it is written back at the last point of each half
(t ≡ 7 mod 8). So every index of the array lies in a block that is written back: slab `i 0` at point
8 · (i 0) + 7. -/

theorem ht2 (t : Fin cfg0.N) : t.val / 8 < 2 := by
  have h : cfg0.N = 16 := N_0
  have := t.isLt
  omega

theorem idx13 : ∀ t : Fin cfg0.N, win0_13.index t (0 : Fin 3) = t.val / 8 ∧ win0_13.index t (1 : Fin 3) = 0 ∧ win0_13.index t (2 : Fin 3) = 0 :=
  (by decide +kernel : ∀ t : Fin grid0.N, _)

theorem emb13 (u : Fin 1) (n : Fin 4096) (p : Fin 64) :
    ((cfg0.win 13).blk t).view.emb (ix3 u n p) = (ix3 (⟨t.val / 8, ht2 t⟩ : Fin 2) n p : S2x4096x64.Idx) := by
  obtain ⟨e0, e1, e2⟩ := idx13 t
  have hu : u.val = 0 := by omega
  funext a
  apply Fin.ext
  match a with
  | ⟨0, _⟩ => show win0_13.index t (0 : Fin 3) * 1 + 1 * u.val = t.val / 8; omega
  | ⟨1, _⟩ => show win0_13.index t (1 : Fin 3) * 4096 + 1 * n.val = n.val; omega
  | ⟨2, _⟩ => show win0_13.index t (2 : Fin 3) * 64 + 1 * p.val = p.val; omega

theorem cover13 (i : S2x4096x64.Idx) :
    ∃ t : Fin cfg0.N, (cfg0.win 13).flush t = true ∧ i ∈ ((cfg0.win 13).blk t).view.set := by
  have hN : cfg0.N = 16 := N_0
  have h0 : (i 0).val < 2 := (i 0).isLt
  have h1 : (i 1).val < 4096 := (i 1).isLt
  have h2 : (i 2).val < 64 := (i 2).isLt
  obtain ⟨t, ht⟩ : ∃ t : Fin cfg0.N, t.val = 8 * (i 0).val + 7 := ⟨⟨8 * (i 0).val + 7, by omega⟩, rfl⟩
  obtain ⟨e0, e1, e2⟩ := idx13 t
  refine ⟨t, (flush0_13 t).mpr (by omega), ?_⟩
  show i ∈ ((View.whole main_v17).slice (win0_13.rect t)).set
  rw [View.set_slice_whole, Rect.mem_set_unit]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 4096 ≤ (i 1).val ∧ (i 1).val < win0_13.index t (1 : Fin 3) * 4096 + 4096; omega
  | ⟨2, _⟩ => show win0_13.index t (2 : Fin 3) * 64 ≤ (i 2).val ∧ (i 2).val < win0_13.index t (2 : Fin 3) * 64 + 64; omega

end Cert.KernelIdeal.InputBlocks

end
-- ==== Proof.CoreSums.lean ====
/-
  What a core's accumulator and output block hold, point by point.

  Grid point `t` (row-major over 2 cores × 8 members) stages member `t`'s masks, so the blocks the body sees there give
  the specification's member `t` (`member_at`). A core's first point zeroes the accumulator and adds its member; every
  later point adds its member to what the point before left. By induction on the point, after point `t` the accumulator
  holds the members of `t`'s core from the core's first up to `t`, summed (`acc_at`: a sum over
  `range (t mod 8 + 1)` of members `t − t mod 8 + j`). At a core's last point the output block is that sum of all eight,
  times 1/16: the specification's `half` of core `t / 8` (`out_at`).
-/
import proofs.«107710_j82995948027952_2_alg».proof.Proof.PointCases
import proofs.«107710_j82995948027952_2_alg».proof.Proof.InputBlocks

set_option maxRecDepth 16384

noncomputable section

open scoped BigOperators

namespace Cert.KernelIdeal.CoreSums

open Cert.KernelIdeal Cert.KernelIdeal.Gen Cert.KernelIdeal.PointCases Cert.KernelIdeal.InputBlocks Cert.Ensemble
open Idealize.ShloMosaic Idealize.ShloMosaic.ValueIdx Idealize.ShloMosaic.TcCoe
open Idealize.SL Idealize.SL.Sem

variable (m : (ℓ : Loc nD τ sig) → Buf (Elt Ideal) ℓ) (c : Dev nD)

/-- The thirteen argument arrays on core `c`, as the specification's network. -/
def netOf : Cert.Ensemble.Net :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9), m ((c : Thread nD τ).loc main_arg10), m ((c : Thread nD τ).loc main_arg11),
    m ((c : Thread nD τ).loc main_arg12)⟩

/-- The blocks at grid point `t` give member `t` of the ensemble. -/
theorem member_at (t : Fin cfg0.N) (n : Fin 4096) (p : Fin 64) :
    Cert.Ensemble.blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) n p = outN (netOf m c) t.val n p := by
  unfold outN
  rw [dif_pos (ht16 t)]
  exact blockOut_eq_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (netOf m c) ⟨t.val, ht16 t⟩ (blk0_at m c t) (blk1_at m c t) (blk2_at m c t) (blk3_at m c t) (blk4_at m c t) (blk5_at m c t) (blk6_at m c t) (blk7_at m c t) (blk8_at m c t) (blk9_at m c t) (blk10_at m c t) (blk11_at m c t) (blk12_at m c t) n p

/-- The members of `k`'s core from the core's first up to `k`, summed. -/
def coreSum (k : ℕ) (n : Fin 4096) (p : Fin 64) : EReal :=
  ∑ j ∈ Finset.range (k % 8 + 1), outN (netOf m c) (k - k % 8 + j) n p

/-- A core's first point: the sum is its one member. -/
theorem coreSum_first (k : ℕ) (h0 : k % 8 = 0) (n : Fin 4096) (p : Fin 64) :
    coreSum m c k n p = 0 + outN (netOf m c) k n p := by
  unfold coreSum
  rw [h0]
  simp only [zero_add, Finset.sum_range_one, Nat.sub_zero, Nat.add_zero]

/-- A later point: the point before's sum plus this point's member. -/
theorem coreSum_next (k : ℕ) (h0 : ¬(k + 1) % 8 = 0) (n : Fin 4096) (p : Fin 64) :
    coreSum m c (k + 1) n p = coreSum m c k n p + outN (netOf m c) (k + 1) n p := by
  unfold coreSum
  have e1 : (k + 1) % 8 = k % 8 + 1 := by omega
  have e2 : k + 1 - (k % 8 + 1) = k - k % 8 := by omega
  have e3 : k - k % 8 + (k % 8 + 1) = k + 1 := by omega
  rw [e1, Finset.sum_range_succ, e2, e3]

/-- After grid point `t` the accumulator holds the sum of its core's members so far. -/
theorem acc_at : ∀ (k : ℕ) (hk : k < cfg0.N) (n : Fin 4096) (p : Fin 64),
    (outsAt0 (F := Ideal) m c k hk).2 (ix2 n p) = coreSum m c k n p
  | 0, hk, n, p => by
    have h0 : (⟨0, hk⟩ : Fin cfg0.N).val % 8 = 0 := rfl
    have h1 : ¬(⟨0, hk⟩ : Fin cfg0.N).val % 8 = 7 := by show ¬(0 : ℕ) % 8 = 7; decide
    rw [(outsAt0_A (F := Ideal) m c (⟨0, hk⟩ : Fin cfg0.N) h0 h1 : outsAt0 (F := Ideal) m c 0 hk = _)]
    refine (acc_first c (grid0.coords (⟨0, hk⟩ : Fin cfg0.N)) (ms0_0 (⟨0, hk⟩ : Fin cfg0.N)) (hs0_0 (⟨0, hk⟩ : Fin cfg0.N)) (ms0_1 (⟨0, hk⟩ : Fin cfg0.N)) (hs0_1 (⟨0, hk⟩ : Fin cfg0.N)) (ms0_2 (⟨0, hk⟩ : Fin cfg0.N)) (hs0_2 (⟨0, hk⟩ : Fin cfg0.N)) (ms0_3 (⟨0, hk⟩ : Fin cfg0.N)) (hs0_3 (⟨0, hk⟩ : Fin cfg0.N)) (ms0_4 (⟨0, hk⟩ : Fin cfg0.N)) (hs0_4 (⟨0, hk⟩ : Fin cfg0.N)) (ms0_5 (⟨0, hk⟩ : Fin cfg0.N)) (hs0_5 (⟨0, hk⟩ : Fin cfg0.N)) (ms0_6 (⟨0, hk⟩ : Fin cfg0.N)) (hs0_6 (⟨0, hk⟩ : Fin cfg0.N)) (ms0_7 (⟨0, hk⟩ : Fin cfg0.N)) (hs0_7 (⟨0, hk⟩ : Fin cfg0.N)) (ms0_8 (⟨0, hk⟩ : Fin cfg0.N)) (hs0_8 (⟨0, hk⟩ : Fin cfg0.N)) (ms0_9 (⟨0, hk⟩ : Fin cfg0.N)) (hs0_9 (⟨0, hk⟩ : Fin cfg0.N)) (ms0_10 (⟨0, hk⟩ : Fin cfg0.N)) (hs0_10 (⟨0, hk⟩ : Fin cfg0.N)) (ms0_11 (⟨0, hk⟩ : Fin cfg0.N)) (hs0_11 (⟨0, hk⟩ : Fin cfg0.N)) (ms0_12 (⟨0, hk⟩ : Fin cfg0.N)) (hs0_12 (⟨0, hk⟩ : Fin cfg0.N)) (ms0_13 (⟨0, hk⟩ : Fin cfg0.N)) (hs0_13 (⟨0, hk⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨0, hk⟩ : Fin cfg0.N)).mpr h0) (fun h => h1 ((hcond0_1 (⟨0, hk⟩ : Fin cfg0.N)).mp h)) (iblk m c 0 (⟨0, hk⟩ : Fin cfg0.N)) (iblk m c 1 (⟨0, hk⟩ : Fin cfg0.N)) (iblk m c 2 (⟨0, hk⟩ : Fin cfg0.N)) (iblk m c 3 (⟨0, hk⟩ : Fin cfg0.N)) (iblk m c 4 (⟨0, hk⟩ : Fin cfg0.N)) (iblk m c 5 (⟨0, hk⟩ : Fin cfg0.N)) (iblk m c 6 (⟨0, hk⟩ : Fin cfg0.N)) (iblk m c 7 (⟨0, hk⟩ : Fin cfg0.N)) (iblk m c 8 (⟨0, hk⟩ : Fin cfg0.N)) (iblk m c 9 (⟨0, hk⟩ : Fin cfg0.N)) (iblk m c 10 (⟨0, hk⟩ : Fin cfg0.N)) (iblk m c 11 (⟨0, hk⟩ : Fin cfg0.N)) (iblk m c 12 (⟨0, hk⟩ : Fin cfg0.N)) n p).trans ?_
    rw [member_at m c (⟨0, hk⟩ : Fin cfg0.N) n p]
    exact (coreSum_first m c 0 rfl n p).symm
  | k + 1, hk, n, p => by
    have ih := acc_at k (Nat.lt_of_succ_lt hk) n p
    by_cases h0 : (k + 1) % 8 = 0
    · have h1 : ¬(k + 1) % 8 = 7 := by omega
      rw [(outsAt0_A (F := Ideal) m c (⟨k + 1, hk⟩ : Fin cfg0.N) h0 h1 : outsAt0 (F := Ideal) m c (k + 1) hk = _)]
      refine (acc_first c (grid0.coords (⟨k + 1, hk⟩ : Fin cfg0.N)) (ms0_0 (⟨k + 1, hk⟩ : Fin cfg0.N)) (hs0_0 (⟨k + 1, hk⟩ : Fin cfg0.N)) (ms0_1 (⟨k + 1, hk⟩ : Fin cfg0.N)) (hs0_1 (⟨k + 1, hk⟩ : Fin cfg0.N)) (ms0_2 (⟨k + 1, hk⟩ : Fin cfg0.N)) (hs0_2 (⟨k + 1, hk⟩ : Fin cfg0.N)) (ms0_3 (⟨k + 1, hk⟩ : Fin cfg0.N)) (hs0_3 (⟨k + 1, hk⟩ : Fin cfg0.N)) (ms0_4 (⟨k + 1, hk⟩ : Fin cfg0.N)) (hs0_4 (⟨k + 1, hk⟩ : Fin cfg0.N)) (ms0_5 (⟨k + 1, hk⟩ : Fin cfg0.N)) (hs0_5 (⟨k + 1, hk⟩ : Fin cfg0.N)) (ms0_6 (⟨k + 1, hk⟩ : Fin cfg0.N)) (hs0_6 (⟨k + 1, hk⟩ : Fin cfg0.N)) (ms0_7 (⟨k + 1, hk⟩ : Fin cfg0.N)) (hs0_7 (⟨k + 1, hk⟩ : Fin cfg0.N)) (ms0_8 (⟨k + 1, hk⟩ : Fin cfg0.N)) (hs0_8 (⟨k + 1, hk⟩ : Fin cfg0.N)) (ms0_9 (⟨k + 1, hk⟩ : Fin cfg0.N)) (hs0_9 (⟨k + 1, hk⟩ : Fin cfg0.N)) (ms0_10 (⟨k + 1, hk⟩ : Fin cfg0.N)) (hs0_10 (⟨k + 1, hk⟩ : Fin cfg0.N)) (ms0_11 (⟨k + 1, hk⟩ : Fin cfg0.N)) (hs0_11 (⟨k + 1, hk⟩ : Fin cfg0.N)) (ms0_12 (⟨k + 1, hk⟩ : Fin cfg0.N)) (hs0_12 (⟨k + 1, hk⟩ : Fin cfg0.N)) (ms0_13 (⟨k + 1, hk⟩ : Fin cfg0.N)) (hs0_13 (⟨k + 1, hk⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨k + 1, hk⟩ : Fin cfg0.N)).mpr h0) (fun h => h1 ((hcond0_1 (⟨k + 1, hk⟩ : Fin cfg0.N)).mp h)) (iblk m c 0 (⟨k + 1, hk⟩ : Fin cfg0.N)) (iblk m c 1 (⟨k + 1, hk⟩ : Fin cfg0.N)) (iblk m c 2 (⟨k + 1, hk⟩ : Fin cfg0.N)) (iblk m c 3 (⟨k + 1, hk⟩ : Fin cfg0.N)) (iblk m c 4 (⟨k + 1, hk⟩ : Fin cfg0.N)) (iblk m c 5 (⟨k + 1, hk⟩ : Fin cfg0.N)) (iblk m c 6 (⟨k + 1, hk⟩ : Fin cfg0.N)) (iblk m c 7 (⟨k + 1, hk⟩ : Fin cfg0.N)) (iblk m c 8 (⟨k + 1, hk⟩ : Fin cfg0.N)) (iblk m c 9 (⟨k + 1, hk⟩ : Fin cfg0.N)) (iblk m c 10 (⟨k + 1, hk⟩ : Fin cfg0.N)) (iblk m c 11 (⟨k + 1, hk⟩ : Fin cfg0.N)) (iblk m c 12 (⟨k + 1, hk⟩ : Fin cfg0.N)) n p).trans ?_
      rw [member_at m c (⟨k + 1, hk⟩ : Fin cfg0.N) n p]
      exact (coreSum_first m c (k + 1) h0 n p).symm
    · by_cases h1 : (k + 1) % 8 = 7
      · rw [(outsAt0_C (F := Ideal) m c (⟨k + 1, hk⟩ : Fin cfg0.N) h0 h1 : outsAt0 (F := Ideal) m c (k + 1) hk = _)]
        refine (acc_last c (grid0.coords (⟨k + 1, hk⟩ : Fin cfg0.N)) (ms0_0 (⟨k + 1, hk⟩ : Fin cfg0.N)) (hs0_0 (⟨k + 1, hk⟩ : Fin cfg0.N)) (ms0_1 (⟨k + 1, hk⟩ : Fin cfg0.N)) (hs0_1 (⟨k + 1, hk⟩ : Fin cfg0.N)) (ms0_2 (⟨k + 1, hk⟩ : Fin cfg0.N)) (hs0_2 (⟨k + 1, hk⟩ : Fin cfg0.N)) (ms0_3 (⟨k + 1, hk⟩ : Fin cfg0.N)) (hs0_3 (⟨k + 1, hk⟩ : Fin cfg0.N)) (ms0_4 (⟨k + 1, hk⟩ : Fin cfg0.N)) (hs0_4 (⟨k + 1, hk⟩ : Fin cfg0.N)) (ms0_5 (⟨k + 1, hk⟩ : Fin cfg0.N)) (hs0_5 (⟨k + 1, hk⟩ : Fin cfg0.N)) (ms0_6 (⟨k + 1, hk⟩ : Fin cfg0.N)) (hs0_6 (⟨k + 1, hk⟩ : Fin cfg0.N)) (ms0_7 (⟨k + 1, hk⟩ : Fin cfg0.N)) (hs0_7 (⟨k + 1, hk⟩ : Fin cfg0.N)) (ms0_8 (⟨k + 1, hk⟩ : Fin cfg0.N)) (hs0_8 (⟨k + 1, hk⟩ : Fin cfg0.N)) (ms0_9 (⟨k + 1, hk⟩ : Fin cfg0.N)) (hs0_9 (⟨k + 1, hk⟩ : Fin cfg0.N)) (ms0_10 (⟨k + 1, hk⟩ : Fin cfg0.N)) (hs0_10 (⟨k + 1, hk⟩ : Fin cfg0.N)) (ms0_11 (⟨k + 1, hk⟩ : Fin cfg0.N)) (hs0_11 (⟨k + 1, hk⟩ : Fin cfg0.N)) (ms0_12 (⟨k + 1, hk⟩ : Fin cfg0.N)) (hs0_12 (⟨k + 1, hk⟩ : Fin cfg0.N)) (ms0_13 (⟨k + 1, hk⟩ : Fin cfg0.N)) (hs0_13 (⟨k + 1, hk⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨k + 1, hk⟩ : Fin cfg0.N)).mp h)) ((hcond0_1 (⟨k + 1, hk⟩ : Fin cfg0.N)).mpr h1) (iblk m c 0 (⟨k + 1, hk⟩ : Fin cfg0.N)) (iblk m c 1 (⟨k + 1, hk⟩ : Fin cfg0.N)) (iblk m c 2 (⟨k + 1, hk⟩ : Fin cfg0.N)) (iblk m c 3 (⟨k + 1, hk⟩ : Fin cfg0.N)) (iblk m c 4 (⟨k + 1, hk⟩ : Fin cfg0.N)) (iblk m c 5 (⟨k + 1, hk⟩ : Fin cfg0.N)) (iblk m c 6 (⟨k + 1, hk⟩ : Fin cfg0.N)) (iblk m c 7 (⟨k + 1, hk⟩ : Fin cfg0.N)) (iblk m c 8 (⟨k + 1, hk⟩ : Fin cfg0.N)) (iblk m c 9 (⟨k + 1, hk⟩ : Fin cfg0.N)) (iblk m c 10 (⟨k + 1, hk⟩ : Fin cfg0.N)) (iblk m c 11 (⟨k + 1, hk⟩ : Fin cfg0.N)) (iblk m c 12 (⟨k + 1, hk⟩ : Fin cfg0.N)) (outsAt0 m c ((⟨k + 1, hk⟩ : Fin cfg0.N).val - 1) (Nat.lt_of_le_of_lt (Nat.sub_le _ _) (⟨k + 1, hk⟩ : Fin cfg0.N).isLt)).2 n p).trans ?_
        rw [member_at m c (⟨k + 1, hk⟩ : Fin cfg0.N) n p, coreSum_next m c k h0]
        exact congrArg (fun s => s + outN (netOf m c) (k + 1) n p) ih
      · rw [(outsAt0_B (F := Ideal) m c (⟨k + 1, hk⟩ : Fin cfg0.N) h0 h1 : outsAt0 (F := Ideal) m c (k + 1) hk = _)]
        refine (acc_middle c (grid0.coords (⟨k + 1, hk⟩ : Fin cfg0.N)) (ms0_0 (⟨k + 1, hk⟩ : Fin cfg0.N)) (hs0_0 (⟨k + 1, hk⟩ : Fin cfg0.N)) (ms0_1 (⟨k + 1, hk⟩ : Fin cfg0.N)) (hs0_1 (⟨k + 1, hk⟩ : Fin cfg0.N)) (ms0_2 (⟨k + 1, hk⟩ : Fin cfg0.N)) (hs0_2 (⟨k + 1, hk⟩ : Fin cfg0.N)) (ms0_3 (⟨k + 1, hk⟩ : Fin cfg0.N)) (hs0_3 (⟨k + 1, hk⟩ : Fin cfg0.N)) (ms0_4 (⟨k + 1, hk⟩ : Fin cfg0.N)) (hs0_4 (⟨k + 1, hk⟩ : Fin cfg0.N)) (ms0_5 (⟨k + 1, hk⟩ : Fin cfg0.N)) (hs0_5 (⟨k + 1, hk⟩ : Fin cfg0.N)) (ms0_6 (⟨k + 1, hk⟩ : Fin cfg0.N)) (hs0_6 (⟨k + 1, hk⟩ : Fin cfg0.N)) (ms0_7 (⟨k + 1, hk⟩ : Fin cfg0.N)) (hs0_7 (⟨k + 1, hk⟩ : Fin cfg0.N)) (ms0_8 (⟨k + 1, hk⟩ : Fin cfg0.N)) (hs0_8 (⟨k + 1, hk⟩ : Fin cfg0.N)) (ms0_9 (⟨k + 1, hk⟩ : Fin cfg0.N)) (hs0_9 (⟨k + 1, hk⟩ : Fin cfg0.N)) (ms0_10 (⟨k + 1, hk⟩ : Fin cfg0.N)) (hs0_10 (⟨k + 1, hk⟩ : Fin cfg0.N)) (ms0_11 (⟨k + 1, hk⟩ : Fin cfg0.N)) (hs0_11 (⟨k + 1, hk⟩ : Fin cfg0.N)) (ms0_12 (⟨k + 1, hk⟩ : Fin cfg0.N)) (hs0_12 (⟨k + 1, hk⟩ : Fin cfg0.N)) (ms0_13 (⟨k + 1, hk⟩ : Fin cfg0.N)) (hs0_13 (⟨k + 1, hk⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨k + 1, hk⟩ : Fin cfg0.N)).mp h)) (fun h => h1 ((hcond0_1 (⟨k + 1, hk⟩ : Fin cfg0.N)).mp h)) (iblk m c 0 (⟨k + 1, hk⟩ : Fin cfg0.N)) (iblk m c 1 (⟨k + 1, hk⟩ : Fin cfg0.N)) (iblk m c 2 (⟨k + 1, hk⟩ : Fin cfg0.N)) (iblk m c 3 (⟨k + 1, hk⟩ : Fin cfg0.N)) (iblk m c 4 (⟨k + 1, hk⟩ : Fin cfg0.N)) (iblk m c 5 (⟨k + 1, hk⟩ : Fin cfg0.N)) (iblk m c 6 (⟨k + 1, hk⟩ : Fin cfg0.N)) (iblk m c 7 (⟨k + 1, hk⟩ : Fin cfg0.N)) (iblk m c 8 (⟨k + 1, hk⟩ : Fin cfg0.N)) (iblk m c 9 (⟨k + 1, hk⟩ : Fin cfg0.N)) (iblk m c 10 (⟨k + 1, hk⟩ : Fin cfg0.N)) (iblk m c 11 (⟨k + 1, hk⟩ : Fin cfg0.N)) (iblk m c 12 (⟨k + 1, hk⟩ : Fin cfg0.N)) (outsAt0 m c ((⟨k + 1, hk⟩ : Fin cfg0.N).val - 1) (Nat.lt_of_le_of_lt (Nat.sub_le _ _) (⟨k + 1, hk⟩ : Fin cfg0.N).isLt)).2 n p).trans ?_
        rw [member_at m c (⟨k + 1, hk⟩ : Fin cfg0.N) n p, coreSum_next m c k h0]
        exact congrArg (fun s => s + outN (netOf m c) (k + 1) n p) ih

/-- At a core's last point the output block holds the specification's half of that core: its eight members summed,
    times 1/16. -/
theorem out_at (t : Fin cfg0.N) (h1 : t.val % 8 = 7) (n : Fin 4096) (p : Fin 64) :
    (outsAt0 (F := Ideal) m c t.val t.isLt).1 (ix3 (0 : Fin 1) n p) = half (netOf m c) (t.val / 8) n p := by
  have h0 : ¬t.val % 8 = 0 := by omega
  rw [outsAt0_C (F := Ideal) m c t h0 h1]
  dsimp only
  refine (out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2 n p).trans ?_
  rw [member_at m c t n p, acc_at m c (t.val - 1) (Nat.lt_of_le_of_lt (Nat.sub_le _ _) t.isLt) n p]
  unfold half coreSum
  refine congrArg (fun s => s * ((1 / 16 : ℝ) : EReal)) ?_
  have e1 : (t.val - 1) % 8 + 1 = 7 := by omega
  have e2 : t.val - 1 - (t.val - 1) % 8 = 8 * (t.val / 8) := by omega
  have e3 : t.val = 8 * (t.val / 8) + 7 := by omega
  show _ = ∑ j ∈ Finset.range (7 + 1), outN (netOf m c) (8 * (t.val / 8) + j) n p
  rw [e1, e2, Finset.sum_range_succ (fun j => outN (netOf m c) (8 * (t.val / 8) + j) n p) 7]
  exact congrArg (fun x => (∑ j ∈ Finset.range 7, outN (netOf m c) (8 * (t.val / 8) + j) n p) + outN (netOf m c) x n p) e3

end Cert.KernelIdeal.CoreSums

end
-- ==== Proof.KernelResult.lean ====
/-
  The kernel's result array.

  The region's output array [2, 4096, 64] is written one [1, 4096, 64] slab per core, at the core's last grid point
  (point 8c + 7), with the specification's `half` of core c: its eight members summed, times 1/16 (`flushed_eq`, from
  the point-by-point sums). The two slabs tile the array, so after the region it holds `half N c' n p` at (c', n, p)
  (`final_array`). The host then adds the two slabs from zero, entry by entry, which by the specification's
  `mean_eq_halves` is the ensemble mean (`tail_eq_mean`). `run` re-posts the generated frame run with the result array
  named as that mean and the arguments unchanged.
-/
import proofs.«107710_j82995948027952_2_alg».proof.Proof.CoreSums
import Idealize.ShloMosaic.Lib.StableHlo.Run
import Idealize.ShloMosaic.PureOps.Ideal.Laws

set_option maxRecDepth 16384

noncomputable section

open scoped BigOperators

namespace Cert.KernelIdeal.KernelResult

open Cert.KernelIdeal Cert.KernelIdeal.Gen Cert.KernelIdeal.CoreSums Cert.KernelIdeal.InputBlocks Cert.Ensemble
open Idealize.ShloMosaic Idealize.ShloMosaic.ValueIdx Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-- The region's output array after the run: core c' 's half of the mean at (c', n, p). -/
def halves : Buf (Elt Ideal) ((c.tc : Thread nD τ).loc main_v17) :=
  fun i => half (netOf m c) (i 0).val (⟨(i 1).val, (i 1).isLt⟩ : Fin 4096) (⟨(i 2).val, (i 2).isLt⟩ : Fin 64)

/-- What a flushing point writes back is its slab of `halves`. -/
theorem flushed_eq (t : Fin cfg0.N) (hf : (cfg0.win 13).flush t = true) :
    (dats (F := Ideal) m 0 c).flushed 13 t = ((cfg0.win 13).blk t).view.read (Elt Ideal) (halves m c) := by
  have h7 : t.val % 8 = 7 := (flush0_13 t).mp hf
  show (cfg0.win 13).cut (grid0.coords t) ((dats (F := Ideal) m 0 c).after 13 t) = _
  rw [after0_13]
  funext j
  obtain ⟨u, n, p, rfl⟩ : ∃ (u : Fin 1) (n : Fin 4096) (p : Fin 64), j = ix3 u n p := ⟨j 0, j 1, j 2, eq_ix3 j⟩
  obtain rfl : u = 0 := Subsingleton.elim _ _
  show (outsAt0 (F := Ideal) m c t.val t.isLt).1 (ix3 (0 : Fin 1) n p)
    = halves m c (((cfg0.win 13).blk t).view.emb (ix3 (0 : Fin 1) n p))
  rw [out_at m c t h7 n p, emb13 t 0 n p]
  rfl

/-- The two slabs tile the array: after the region it holds `halves`. -/
theorem final_array : (dats (F := Ideal) m 0 c).arrAt 13 cfg0.N = halves m c :=
  (dats (F := Ideal) m 0 c).arrAt_eq_of_cover 13 (halves m c) (flushed_eq m c) cover13

/-- The host's sum of the two slabs from zero is the ensemble mean. -/
theorem tail_eq_mean :
    Pipeline.afterTail₀ cfgs (dats (F := Ideal) m) 0 (V0 m) [hostOps1] c main_v18
      = (Cert.Ensemble.mean (netOf m c) : Buf (Elt Ideal) ((c.tc : Thread nD τ).loc main_v18)) := by
  unfold Pipeline.afterTail₀
  show StableHlo.after hostOps1 _ (Proc.devRef .tc main_v18) = _
  after_results
  rw [(Pipeline.withArrays_arr spec0 launch0.win.arr_inj c _ _ 13).trans (final_array m c)]
  funext i
  obtain ⟨n, p, rfl⟩ : ∃ (n : Fin 4096) (p : Fin 64), i = ix2 n p := ⟨i 0, i 1, eq_ix2 i⟩
  simp only [Host.reduceAdd, Ideal.hostReduceAdd_def]
  rw [Ideal.hostReduceAdd_single reducesTo_S2x4096x64_S4096x64_d0 (by decide), mean_eq_halves]
  refine congrArg₂ (· + ·) Ideal.ofBits_zero_f32 (Finset.sum_congr rfl fun k _ => ?_)
  rfl

/-- The frame run, read: the result array at the ensemble mean of the arguments, the arguments unchanged. -/
theorem run : θ_run defs (onTc (τ := τ) (main (F := Ideal))) ⟨m, fun _ => 0, ρ⟩ (fun r => ∀ c : Dev nD,
      r.2.mem ((c.tc : Thread nD τ).loc main_v18)
        = (Cert.Ensemble.mean (netOf m c) : Buf (Elt Ideal) ((c.tc : Thread nD τ).loc main_v18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).2 main_v18 (Pipeline.mem_restRefs_of main_v18 (by decide) (by decide))).trans (tail_eq_mean m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main (F := Ideal) m ρ)

end Cert.KernelIdeal.KernelResult

end
-- ==== Proof.ReferenceMean.lean ====
/-
  The reference program, read one operation at a time, is the ensemble mean.

  Each of the four layers of the reference forms the masked weight `W.T[None] * M` (a transpose and two
  broadcasts of the weight, times the mask), contracts the previous activations against it member by member, adds
  the broadcast bias and, except in the last layer, takes the maximum with a broadcast zero. Read at an index
  `(b, n, j)` these are exactly `mw`, `h1`, `h2`, `h3` and `out` of the specification; the sum over the sixteen
  members from the zero word and the division by the word for 16 are its `mean`.
-/
import proofs.«107710_j82995948027952_2_alg».proof.Proof.Gen.ReferenceIdeal.Read
import proofs.«107710_j82995948027952_2_alg».proof.Proof.Ensemble
import proofs.«107710_j82995948027952_2_alg».proof.Proof.Consts
import Idealize.ShloMosaic.Lib.ValueIdx
import Idealize.ShloMosaic.PureOps.Ideal
import Idealize.ShloMosaic.PureOps.Ideal.Laws

noncomputable section

open scoped BigOperators

namespace Cert.ReferenceIdeal.RefMean

open Cert.ReferenceIdeal Cert.ReferenceIdeal.Read Idealize.ShloMosaic Idealize.ShloMosaic.ValueIdx Cert.Ensemble

/-! ## The broadcast zero of the three positive parts, and the two scalar constants -/

/-- The zero the first positive part compares with is `0` at every index. -/
theorem zero0 (i : S16x4096x1024.Idx) : val_main_call0_v0 (F := Ideal) i = 0 := by
  rw [val_main_call0_v0_apply, val_main_call0_cst_apply]
  exact Ideal.ofBits_zero_f32

/-- The zero the second positive part compares with. -/
theorem zero1 (i : S16x4096x1024.Idx) : val_main_call1_v0 (F := Ideal) i = 0 := by
  rw [val_main_call1_v0_apply, val_main_call1_cst_apply]
  exact Ideal.ofBits_zero_f32

/-- The zero the third positive part compares with. -/
theorem zero2 (i : S16x4096x1024.Idx) : val_main_call2_v0 (F := Ideal) i = 0 := by
  rw [val_main_call2_v0_apply, val_main_call2_cst_apply]
  exact Ideal.ofBits_zero_f32

/-! ## Layer 0 -/

/-- The first layer's masked weight at (member `b`, input `q`, output `j`): the weight is read transposed. -/
theorem maskedWeight0 (N : Net) (b : Fin 16) (q : Fin 96) (j : Fin 1024) :
    val_main_v5 (F := Ideal) N.w0 N.m0 (ix3 b q j) = mw0 N b q j := by
  rw [val_main_v5_apply, val_main_v4_apply, val_main_v3_apply, val_main_v2_apply]
  have e : idx_main_v2 (idx_main_v3 (idx_main_v4 (ix3 b q j))) = ix2 j q :=
    funext fun a => Fin.ext (by match a with | ⟨0, _⟩ => rfl | ⟨1, _⟩ => rfl)
  rw [e]
  rfl

/-- The first hidden layer at (member `b`, row `n`, unit `j`). -/
theorem hidden1 (N : Net) (b : Fin 16) (n : Fin 4096) (j : Fin 1024) :
    val_main_v10 (F := Ideal) N.x N.w0 N.b0 N.m0 (ix3 b n j) = h1 N b n j := by
  rw [val_main_v10_apply, val_main_v9_apply, zero0, val_main_v6_apply, val_main_v8_apply, val_main_v7_apply,
    Ideal.maximumf_def, Ideal.addf_def]
  have eb : idx_main_v7 (idx_main_v8 (ix3 b n j)) = ix1 j :=
    funext fun a => Fin.ext (by match a with | ⟨0, _⟩ => rfl)
  rw [eb]
  unfold h1
  refine congrArg (fun s => max (s + N.b0 (ix1 j)) 0) (Finset.sum_congr rfl fun k _ => ?_)
  rw [val_main_v1_apply, val_main_v0_apply]
  have el : idx_main_v0 (idx_main_v1 (lidx_main_v6 (ix3 b n j) k)) = ix2 n k :=
    funext fun a => Fin.ext (by match a with | ⟨0, _⟩ => rfl | ⟨1, _⟩ => rfl)
  have er : ridx_main_v6 (ix3 b n j) k = ix3 b k j :=
    funext fun a => Fin.ext (by match a with | ⟨0, _⟩ => rfl | ⟨1, _⟩ => rfl | ⟨2, _⟩ => rfl)
  rw [el, er, maskedWeight0]

/-! ## Layer 1 -/

/-- The second layer's masked weight at (member `b`, input `q`, output `j`). -/
theorem maskedWeight1 (N : Net) (b : Fin 16) (q : Fin 1024) (j : Fin 1024) :
    val_main_v14 (F := Ideal) N.w1 N.m1 (ix3 b q j) = mw1 N b q j := by
  rw [val_main_v14_apply, val_main_v13_apply, val_main_v12_apply, val_main_v11_apply]
  have e : idx_main_v11 (idx_main_v12 (idx_main_v13 (ix3 b q j))) = ix2 j q :=
    funext fun a => Fin.ext (by match a with | ⟨0, _⟩ => rfl | ⟨1, _⟩ => rfl)
  rw [e]
  rfl

/-- The second hidden layer at (member `b`, row `n`, unit `j`). -/
theorem hidden2 (N : Net) (b : Fin 16) (n : Fin 4096) (j : Fin 1024) :
    val_main_v19 (F := Ideal) N.x N.w0 N.b0 N.w1 N.b1 N.m0 N.m1 (ix3 b n j) = h2 N b n j := by
  rw [val_main_v19_apply, val_main_v18_apply, zero1, val_main_v15_apply, val_main_v17_apply, val_main_v16_apply,
    Ideal.maximumf_def, Ideal.addf_def]
  have eb : idx_main_v16 (idx_main_v17 (ix3 b n j)) = ix1 j :=
    funext fun a => Fin.ext (by match a with | ⟨0, _⟩ => rfl)
  rw [eb]
  unfold h2
  refine congrArg (fun s => max (s + N.b1 (ix1 j)) 0) (Finset.sum_congr rfl fun k _ => ?_)
  have el : lidx_main_v15 (ix3 b n j) k = ix3 b n k :=
    funext fun a => Fin.ext (by match a with | ⟨0, _⟩ => rfl | ⟨1, _⟩ => rfl | ⟨2, _⟩ => rfl)
  have er : ridx_main_v15 (ix3 b n j) k = ix3 b k j :=
    funext fun a => Fin.ext (by match a with | ⟨0, _⟩ => rfl | ⟨1, _⟩ => rfl | ⟨2, _⟩ => rfl)
  rw [el, er, hidden1, maskedWeight1]

/-! ## Layer 2 -/

/-- The third layer's masked weight at (member `b`, input `q`, output `j`). -/
theorem maskedWeight2 (N : Net) (b : Fin 16) (q : Fin 1024) (j : Fin 1024) :
    val_main_v23 (F := Ideal) N.w2 N.m2 (ix3 b q j) = mw2 N b q j := by
  rw [val_main_v23_apply, val_main_v22_apply, val_main_v21_apply, val_main_v20_apply]
  have e : idx_main_v20 (idx_main_v21 (idx_main_v22 (ix3 b q j))) = ix2 j q :=
    funext fun a => Fin.ext (by match a with | ⟨0, _⟩ => rfl | ⟨1, _⟩ => rfl)
  rw [e]
  rfl

/-- The third hidden layer at (member `b`, row `n`, unit `j`). -/
theorem hidden3 (N : Net) (b : Fin 16) (n : Fin 4096) (j : Fin 1024) :
    val_main_v28 (F := Ideal) N.x N.w0 N.b0 N.w1 N.b1 N.w2 N.b2 N.m0 N.m1 N.m2 (ix3 b n j) = h3 N b n j := by
  rw [val_main_v28_apply, val_main_v27_apply, zero2, val_main_v24_apply, val_main_v26_apply, val_main_v25_apply,
    Ideal.maximumf_def, Ideal.addf_def]
  have eb : idx_main_v25 (idx_main_v26 (ix3 b n j)) = ix1 j :=
    funext fun a => Fin.ext (by match a with | ⟨0, _⟩ => rfl)
  rw [eb]
  unfold h3
  refine congrArg (fun s => max (s + N.b2 (ix1 j)) 0) (Finset.sum_congr rfl fun k _ => ?_)
  have el : lidx_main_v24 (ix3 b n j) k = ix3 b n k :=
    funext fun a => Fin.ext (by match a with | ⟨0, _⟩ => rfl | ⟨1, _⟩ => rfl | ⟨2, _⟩ => rfl)
  have er : ridx_main_v24 (ix3 b n j) k = ix3 b k j :=
    funext fun a => Fin.ext (by match a with | ⟨0, _⟩ => rfl | ⟨1, _⟩ => rfl | ⟨2, _⟩ => rfl)
  rw [el, er, hidden2, maskedWeight2]

/-! ## Layer 3 (no positive part) -/

/-- The last layer's masked weight at (member `b`, input `q`, output `p`). -/
theorem maskedWeight3 (N : Net) (b : Fin 16) (q : Fin 1024) (p : Fin 64) :
    val_main_v32 (F := Ideal) N.w3 N.m3 (ix3 b q p) = mw3 N b q p := by
  rw [val_main_v32_apply, val_main_v31_apply, val_main_v30_apply, val_main_v29_apply]
  have e : idx_main_v29 (idx_main_v30 (idx_main_v31 (ix3 b q p))) = ix2 p q :=
    funext fun a => Fin.ext (by match a with | ⟨0, _⟩ => rfl | ⟨1, _⟩ => rfl)
  rw [e]
  rfl

/-- Member `b`'s output at (row `n`, column `p`). -/
theorem memberOut (N : Net) (b : Fin 16) (n : Fin 4096) (p : Fin 64) :
    val_main_v36 (F := Ideal) N.x N.w0 N.b0 N.w1 N.b1 N.w2 N.b2 N.w3 N.b3 N.m0 N.m1 N.m2 N.m3 (ix3 b n p) = out N b n p := by
  rw [val_main_v36_apply, val_main_v33_apply, val_main_v35_apply, val_main_v34_apply, Ideal.addf_def]
  have eb : idx_main_v34 (idx_main_v35 (ix3 b n p)) = ix1 p :=
    funext fun a => Fin.ext (by match a with | ⟨0, _⟩ => rfl)
  rw [eb]
  unfold out
  refine congrArg (fun s => s + N.b3 (ix1 p)) (Finset.sum_congr rfl fun k _ => ?_)
  have el : lidx_main_v33 (ix3 b n p) k = ix3 b n k :=
    funext fun a => Fin.ext (by match a with | ⟨0, _⟩ => rfl | ⟨1, _⟩ => rfl | ⟨2, _⟩ => rfl)
  have er : ridx_main_v33 (ix3 b n p) k = ix3 b k p :=
    funext fun a => Fin.ext (by match a with | ⟨0, _⟩ => rfl | ⟨1, _⟩ => rfl | ⟨2, _⟩ => rfl)
  rw [el, er, hidden3, maskedWeight3]

/-! ## The mean over the members -/

/-- The sum over the sixteen members from the zero word, at (row `n`, column `p`). -/
theorem memberSum (N : Net) (n : Fin 4096) (p : Fin 64) :
    val_main_v37 (F := Ideal) N.x N.w0 N.b0 N.w1 N.b1 N.w2 N.b2 N.w3 N.b3 N.m0 N.m1 N.m2 N.m3 (ix2 n p)
      = 0 + ∑ b : Fin 16, out N b n p := by
  rw [val_main_v37_apply, val_main_cst_apply, Ideal.ofBits_def, Ideal.ofBits_zero_f32]
  refine congrArg (fun s => (0 : EReal) + s) (Finset.sum_congr rfl fun k _ => ?_)
  have e : idx_main_v37 (ix2 n p) k = ix3 k n p :=
    funext fun a => Fin.ext (by match a with | ⟨0, _⟩ => rfl | ⟨1, _⟩ => rfl | ⟨2, _⟩ => rfl)
  rw [e, memberOut]

/-- The divisor is the real `16` at every index. -/
theorem divisor (i : S4096x64.Idx) : val_main_v38 (F := Ideal) i = ((16 : ℝ) : EReal) := by
  rw [val_main_v38_apply, val_main_cst_0_apply, Ideal.ofBits_def]
  exact Cert.EnsembleConsts.ofBits_sixteen

/-- The reference's result at (row `n`, column `p`) is the mean there. -/
theorem result_at (N : Net) (n : Fin 4096) (p : Fin 64) :
    val_main_v39 (F := Ideal) N.x N.w0 N.b0 N.w1 N.b1 N.w2 N.b2 N.w3 N.b3 N.m0 N.m1 N.m2 N.m3 (ix2 n p)
      = mean N (ix2 n p) := by
  rw [val_main_v39_apply, memberSum, divisor, Ideal.hostDivf_def]
  rfl

/-- The reference's result is the ensemble mean of its thirteen arguments. -/
theorem result_eq (x0 : FVec Ideal S4096x96 .f32) (x1 : FVec Ideal S1024x96 .f32) (x2 : FVec Ideal S1024 .f32)
    (x3 : FVec Ideal S1024x1024 .f32) (x4 : FVec Ideal S1024 .f32) (x5 : FVec Ideal S1024x1024 .f32)
    (x6 : FVec Ideal S1024 .f32) (x7 : FVec Ideal S64x1024 .f32) (x8 : FVec Ideal S64 .f32)
    (x9 : FVec Ideal S16x96x1024 .f32) (x10 x11 : FVec Ideal S16x1024x1024 .f32)
    (x12 : FVec Ideal S16x1024x64 .f32) :
    Cert.ReferenceIdeal.Read.val_main_v39 (F := Ideal) x0 x1 x2 x3 x4 x5 x6 x7 x8 x9 x10 x11 x12
      = Cert.Ensemble.mean ⟨x0, x1, x2, x3, x4, x5, x6, x7, x8, x9, x10, x11, x12⟩ := by
  funext i
  obtain ⟨n, p, rfl⟩ : ∃ (n : Fin 4096) (p : Fin 64), i = ix2 n p := ⟨i 0, i 1, eq_ix2 i⟩
  exact result_at ⟨x0, x1, x2, x3, x4, x5, x6, x7, x8, x9, x10, x11, x12⟩ n p

end Cert.ReferenceIdeal.RefMean

end
-- ==== Proof.lean ====
/-
  An ensemble of sixteen masked multilayer perceptrons, averaged: the kernel against the reference.

  Both programs push the same batch through four dense layers whose weights are masked entrywise by each member's
  0/1 masks, with the positive part after the first three, and average the sixteen members' outputs. At the ideal
  values every float operation is the exact one on the extended reals and a change of float format is the identity, so
  the kernel's narrowing of inputs and activations changes nothing, and a matrix product is a plain sum whatever its
  tiling. The reference forms all sixteen members at once and divides their sum by 16. The kernel gives each of two
  cores eight members: a grid point computes one member (its masked weights once, then the batch in eight chunks of 512
  rows) and adds it to an accumulator carried from point to point; the core's last point writes the accumulator times
  the float 2⁻⁴, and the host adds the two cores' slabs.

  So entry (n, p) of the kernel's result is  0 + (Σ of members 0…7)·(1/16) + (Σ of members 8…15)·(1/16)  and of the
  reference's  (0 + Σ of members 0…15) / 16. Division by the real 16 is multiplication by the real 1/16, and
  multiplication by a nonnegative real distributes over addition on ALL extended reals, so the two agree with no
  appeal to the inputs being finite (Proof/Ensemble.lean, `mean_eq_halves`). The kernel's side is read off the
  generated frame run (Proof/RowChunkLoop … Proof/KernelResult); the reference's off its generated run, one operation
  at a time (Proof/ReferenceMean). The three frames are the generated ones, and the idealization rewrote nothing.
-/
import proofs.«107710_j82995948027952_2_alg».proof.Defs
import proofs.«107710_j82995948027952_2_alg».proof.Proof.Gen.Kernel
import proofs.«107710_j82995948027952_2_alg».proof.Proof.Gen.Kernel.Skeleton
import proofs.«107710_j82995948027952_2_alg».proof.Proof.Gen.Kernel.Loops
import proofs.«107710_j82995948027952_2_alg».proof.Proof.Gen.Kernel.Launch
import proofs.«107710_j82995948027952_2_alg».proof.Proof.Gen.Kernel.Points
import proofs.«107710_j82995948027952_2_alg».proof.Proof.Gen.Kernel.Frame
import proofs.«107710_j82995948027952_2_alg».proof.Proof.Gen.KernelIdeal
import proofs.«107710_j82995948027952_2_alg».proof.Proof.Gen.KernelIdeal.Skeleton
import proofs.«107710_j82995948027952_2_alg».proof.Proof.Gen.KernelIdeal.Loops
import proofs.«107710_j82995948027952_2_alg».proof.Proof.Gen.KernelIdeal.Launch
import proofs.«107710_j82995948027952_2_alg».proof.Proof.Gen.KernelIdeal.Points
import proofs.«107710_j82995948027952_2_alg».proof.Proof.Gen.KernelIdeal.Frame
import proofs.«107710_j82995948027952_2_alg».proof.Proof.Gen.ReferenceIdeal
import proofs.«107710_j82995948027952_2_alg».proof.Proof.Gen.Pre_finite_inputs
import proofs.«107710_j82995948027952_2_alg».proof.Proof.Gen.ReferenceIdeal.Run
import proofs.«107710_j82995948027952_2_alg».proof.Proof.Gen.ReferenceIdeal.Read
import proofs.«107710_j82995948027952_2_alg».proof.Proof.KernelResult
import proofs.«107710_j82995948027952_2_alg».proof.Proof.ReferenceMean
import Idealize.ShloMosaic.Adequacy
import Idealize.ShloMosaic.Init

noncomputable section

namespace Cert.Proof

open Idealize.ShloMosaic Idealize.SL.Sem

/-- The printed kernel runs and keeps its arguments: the generated frame. -/
theorem frame_k : Cert.frame_Kernel :=
  fun m ρ _ => Cert.Kernel.Gen.frame m ρ

/-- The idealized kernel runs and keeps its arguments: the generated frame. -/
theorem frame_ki : Cert.frame_KernelIdeal :=
  fun m ρ _ => Cert.KernelIdeal.Gen.frame m ρ

/-- The idealized reference runs and keeps its arguments: its generated run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- From memories that agree on the arguments both idealized programs end with the ensemble mean of the arguments. -/
theorem algebraic : Cert.algebraic_KernelIdeal_ReferenceIdeal := by
  intro m ρ m' ρ' _ hagree
  refine ⟨fun c => Cert.Ensemble.mean (Cert.KernelIdeal.CoreSums.netOf m c), Cert.KernelIdeal.KernelResult.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8, e9, e10, e11, e12⟩ := hagree c
  rw [(h c).1, Cert.ReferenceIdeal.Read.val_main_v39_eq, Cert.ReferenceIdeal.RefMean.result_eq, e0, e1, e2, e3, e4, e5, e6, e7, e8, e9, e10, e11, e12]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
